-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x2048x64 : Shape := ⟨4, ![8, 32, 2048, 64]⟩
abbrev S32x64 : Shape := ⟨2, ![32, 64]⟩
abbrev S32 : Shape := ⟨1, ![32]⟩
abbrev S_ : Shape := ⟨0, ![]⟩

class Facts : Prop where
  bcast_S_S8x32x2048x64 : S_.BroadcastsInDim S8x32x2048x64 (![] : Fin 0 → Fin S8x32x2048x64.rank)
  reducesTo_S8x32x2048x64_S_d0_1_2_3 : S8x32x2048x64.ReducesTo [0, 1, 2, 3] S_
  h_S_ : 0 < S_.numel
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  main_v18

def fn {F : FTy → Type} [FloatOps F] (main_arg0 : FVec F S8x32x2048x64 .f32) (main_arg1 : FVec F S32x64 .f32) (main_arg2 : FVec F S32 .f32) (main_arg3 : FVec F S32x64 .f32) : IVec S_ 1 :=
  let main_v0 : FVec F S8x32x2048x64 .f32 := Host.absf main_arg0
  let main_cst : FVec F S_ .f32 := constant S_ .f32 0x7F800000#32
  let main_v1 : FVec F S8x32x2048x64 .f32 := broadcastInDim S8x32x2048x64 ![] bcast_S_S8x32x2048x64 main_cst
  let main_v2 : IVec S8x32x2048x64 1 := cmpf .olt main_v0 main_v1
  let main_c : IVec S_ 1 := constantI S_ 1 1#1
  let main_v3 : IVec S_ 1 := (fun x v => Host.reduce IntOp.andi x v reducesTo_S8x32x2048x64_S_d0_1_2_3 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_v13 main_v16
-- ==== Kernel.lean ====
abbrev S8x32x2048x64 : Shape := ⟨4, ![8, 32, 2048, 64]⟩
abbrev S32x64 : Shape := ⟨2, ![32, 64]⟩
abbrev S32 : Shape := ⟨1, ![32]⟩
abbrev S32x1 : Shape := ⟨2, ![32, 1]⟩
abbrev S8x32x64x2048 : Shape := ⟨4, ![8, 32, 64, 2048]⟩
abbrev S8x32x32x64 : Shape := ⟨4, ![8, 32, 32, 64]⟩
abbrev S1x32x64x2048 : Shape := ⟨4, ![1, 32, 64, 2048]⟩
abbrev S1x32x32x64 : Shape := ⟨4, ![1, 32, 32, 64]⟩
abbrev S1x1x64x2048 : Shape := ⟨4, ![1, 1, 64, 2048]⟩
abbrev S64x2048 : Shape := ⟨2, ![64, 2048]⟩
abbrev S32x2048 : Shape := ⟨2, ![32, 2048]⟩
abbrev S2048 : Shape := ⟨1, ![2048]⟩
abbrev S1x2048 : Shape := ⟨2, ![1, 2048]⟩
abbrev S1x1x32x64 : Shape := ⟨4, ![1, 1, 32, 64]⟩

abbrev nBuf : Space → Nat
  | .hbm => 7
  | .vmem => 7
  | .smem => 0
  | _ => 0

abbrev bufTy : (tb : Table) → Fin (tcTables nBuf tb) → BufTy
  | .hbm, ⟨0, _⟩ => ⟨S8x32x2048x64, .f32⟩
  | .hbm, ⟨1, _⟩ => ⟨S32x64, .f32⟩
  | .hbm, ⟨2, _⟩ => ⟨S32, .f32⟩
  | .hbm, ⟨3, _⟩ => ⟨S32x64, .f32⟩
  | .hbm, ⟨4, _⟩ => ⟨S32x1, .f32⟩
  | .hbm, ⟨5, _⟩ => ⟨S8x32x64x2048, .f32⟩
  | .hbm, ⟨6, _⟩ => ⟨S8x32x32x64, .f32⟩
  | .local _ .vmem, ⟨0, _⟩ => ⟨S1x32x64x2048, .f32⟩
  | .local _ .vmem, ⟨1, _⟩ => ⟨S1x32x64x2048, .f32⟩
  | .local _ .vmem, ⟨2, _⟩ => ⟨S32x64, .f32⟩
  | .local _ .vmem, ⟨3, _⟩ => ⟨S32x1, .f32⟩
  | .local _ .vmem, ⟨4, _⟩ => ⟨S32x64, .f32⟩
  | .local _ .vmem, ⟨5, _⟩ => ⟨S1x32x32x64, .f32⟩
  | .local _ .vmem, ⟨6, _⟩ => ⟨S1x32x32x64, .f32⟩
  | _, _ => ⟨S8x32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, v26.toNat, c0_i32_11.toNat, c0_i32_12.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, v26.toNat, c0_i32_11.toNat, c0_i32_12.toNat]

abbrev stage0_0 : Fin 2 → Memref sig .tc .vmem S1x32x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x32x32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32_S32x1 : S32.ShapeCasts S32x1
  transposes_S8x32x2048x64_S8x32x64x2048_0_1_3_2 : S8x32x2048x64.Transposes [0, 1, 3, 2] S8x32x64x2048
  inb_S32x64_S32x64_0_0 : ∀ a, (![0, 0] : Fin 2 → Nat) a + S32x64.size a ≤ S32x64.size a
  h_S32x64 : 0 < S32x64.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x32x64x2048_S1x1x64x2048_0_0_0_0 : ∀ a, (![0, 0, 0, 0] : Fin 4 → Nat) a + S1x1x64x2048.size a ≤ S1x32x64x2048.size a
  h_S1x1x64x2048 : 0 < S1x1x64x2048.numel
  shapeCasts_S1x1x64x2048_S64x2048 : S1x1x64x2048.ShapeCasts S64x2048
  bitsLt_bf16_f32 : FTy.bits .bf16 < FTy.bits .f32
  broadcasts_S32x1_S32x2048 : S32x1.Broadcasts S32x2048
  reduces_S32x2048_S2048 : S32x2048.Reduces [0] S2048
  shapeCasts_S2048_S1x2048 : S2048.ShapeCasts S1x2048
  broadcasts_S1x2048_S32x2048 : S1x2048.Broadcasts S32x2048
  reduces_S32x2048_S32 : S32x2048.Reduces [1] S32
  broadcasts_S32x1_S32x64 : S32x1.Broadcasts S32x64
  inb_S1x32x32x64_S1x1x32x64_0_0_0_0 : ∀ a, (![0, 0, 0, 0] : Fin 4 → Nat) a + S1x1x32x64.size a ≤ S1x32x32x64.size a
  h_S1x1x32x64 : 0 < S1x1x32x64.numel
  shapeCasts_S1x1x32x64_S32x64 : S1x1x32x64.ShapeCasts S32x64
  shapeCasts_S32x64_S1x1x32x64 : S32x64.ShapeCasts S1x1x32x64
  inb_S1x32x64x2048_S1x1x64x2048_0_1_0_0 : ∀ a, (![0, 1, 0, 0] : Fin 4 → Nat) a + S1x1x64x2048.size a ≤ S1x32x64x2048.size a
  inb_S1x32x32x64_S1x1x32x64_0_1_0_0 : ∀ a, (![0, 1, 0, 0] : Fin 4 → Nat) a + S1x1x32x64.size a ≤ S1x32x32x64.size a
  inb_S1x32x64x2048_S1x1x64x2048_0_2_0_0 : ∀ a, (![0, 2, 0, 0] : Fin 4 → Nat) a + S1x1x64x2048.size a ≤ S1x32x64x2048.size a
  inb_S1x32x32x64_S1x1x32x64_0_2_0_0 : ∀ a, (![0, 2, 0, 0] : Fin 4 → Nat) a + S1x1x32x64.size a ≤ S1x32x32x64.size a
  inb_S1x32x64x2048_S1x1x64x2048_0_3_0_0 : ∀ a, (![0, 3, 0, 0] : Fin 4 → Nat) a + S1x1x64x2048.size a ≤ S1x32x64x2048.size a
  inb_S1x32x32x64_S1x1x32x64_0_3_0_0 : ∀ a, (![0, 3, 0, 0] : Fin 4 → Nat) a + S1x1x32x64.size a ≤ S1x32x32x64.size a
  inb_S1x32x64x2048_S1x1x64x2048_0_4_0_0 : ∀ a, (![0, 4, 0, 0] : Fin 4 → Nat) a + S1x1x64x2048.size a ≤ S1x32x64x2048.size a
  inb_S1x32x32x64_S1x1x32x64_0_4_0_0 : ∀ a, (![0, 4, 0, 0] : Fin 4 → Nat) a + S1x1x32x64.size a ≤ S1x32x32x64.size a
  inb_S1x32x64x2048_S1x1x64x2048_0_5_0_0 : ∀ a, (![0, 5, 0, 0] : Fin 4 → Nat) a + S1x1x64x2048.size a ≤ S1x32x64x2048.size a
  inb_S1x32x32x64_S1x1x32x64_0_5_0_0 : ∀ a, (![0, 5, 0, 0] : Fin 4 → Nat) a + S1x1x32x64.size a ≤ S1x32x32x64.size a
  inb_S1x32x64x2048_S1x1x64x2048_0_6_0_0 : ∀ a, (![0, 6, 0, 0] : Fin 4 → Nat) a + S1x1x64x2048.size a ≤ S1x32x64x2048.size a
  inb_S1x32x32x64_S1x1x32x64_0_6_0_0 : ∀ a, (![0, 6, 0, 0] : Fin 4 → Nat) a + S1x1x32x64.size a ≤ S1x32x32x64.size a
  inb_S1x32x64x2048_S1x1x64x2048_0_7_0_0 : ∀ a, (![0, 7, 0, 0] : Fin 4 → Nat) a + S1x1x64x2048.size a ≤ S1x32x64x2048.size a
  inb_S1x32x32x64_S1x1x32x64_0_7_0_0 : ∀ a, (![0, 7, 0, 0] : Fin 4 → Nat) a + S1x1x32x64.size a ≤ S1x32x32x64.size a
  inb_S1x32x64x2048_S1x1x64x2048_0_8_0_0 : ∀ a, (![0, 8, 0, 0] : Fin 4 → Nat) a + S1x1x64x2048.size a ≤ S1x32x64x2048.size a
  inb_S1x32x32x64_S1x1x32x64_0_8_0_0 : ∀ a, (![0, 8, 0, 0] : Fin 4 → Nat) a + S1x1x32x64.size a ≤ S1x32x32x64.size a
  inb_S1x32x64x2048_S1x1x64x2048_0_9_0_0 : ∀ a, (![0, 9, 0, 0] : Fin 4 → Nat) a + S1x1x64x2048.size a ≤ S1x32x64x2048.size a
  inb_S1x32x32x64_S1x1x32x64_0_9_0_0 : ∀ a, (![0, 9, 0, 0] : Fin 4 → Nat) a + S1x1x32x64.size a ≤ S1x32x32x64.size a
  inb_S1x32x64x2048_S1x1x64x2048_0_10_0_0 : ∀ a, (![0, 10, 0, 0] : Fin 4 → Nat) a + S1x1x64x2048.size a ≤ S1x32x64x2048.size a
  inb_S1x32x32x64_S1x1x32x64_0_10_0_0 : ∀ a, (![0, 10, 0, 0] : Fin 4 → Nat) a + S1x1x32x64.size a ≤ S1x32x32x64.size a
  inb_S1x32x64x2048_S1x1x64x2048_0_11_0_0 : ∀ a, (![0, 11, 0, 0] : Fin 4 → Nat) a + S1x1x64x2048.size a ≤ S1x32x64x2048.size a
  inb_S1x32x32x64_S1x1x32x64_0_11_0_0 : ∀ a, (![0, 11, 0, 0] : Fin 4 → Nat) a + S1x1x32x64.size a ≤ S1x32x32x64.size a
  inb_S1x32x64x2048_S1x1x64x2048_0_12_0_0 : ∀ a, (![0, 12, 0, 0] : Fin 4 → Nat) a + S1x1x64x2048.size a ≤ S1x32x64x2048.size a
  inb_S1x32x32x64_S1x1x32x64_0_12_0_0 : ∀ a, (![0, 12, 0, 0] : Fin 4 → Nat) a + S1x1x32x64.size a ≤ S1x32x32x64.size a
  inb_S1x32x64x2048_S1x1x64x2048_0_13_0_0 : ∀ a, (![0, 13, 0, 0] : Fin 4 → Nat) a + S1x1x64x2048.size a ≤ S1x32x64x2048.size a
  inb_S1x32x32x64_S1x1x32x64_0_13_0_0 : ∀ a, (![0, 13, 0, 0] : Fin 4 → Nat) a + S1x1x32x64.size a ≤ S1x32x32x64.size a
  inb_S1x32x64x2048_S1x1x64x2048_0_14_0_0 : ∀ a, (![0, 14, 0, 0] : Fin 4 → Nat) a + S1x1x64x2048.size a ≤ S1x32x64x2048.size a
  inb_S1x32x32x64_S1x1x32x64_0_14_0_0 : ∀ a, (![0, 14, 0, 0] : Fin 4 → Nat) a + S1x1x32x64.size a ≤ S1x32x32x64.size a
  inb_S1x32x64x2048_S1x1x64x2048_0_15_0_0 : ∀ a, (![0, 15, 0, 0] : Fin 4 → Nat) a + S1x1x64x2048.size a ≤ S1x32x64x2048.size a
  inb_S1x32x32x64_S1x1x32x64_0_15_0_0 : ∀ a, (![0, 15, 0, 0] : Fin 4 → Nat) a + S1x1x32x64.size a ≤ S1x32x32x64.size a
  inb_S1x32x64x2048_S1x1x64x2048_0_16_0_0 : ∀ a, (![0, 16, 0, 0] : Fin 4 → Nat) a + S1x1x64x2048.size a ≤ S1x32x64x2048.size a
  inb_S1x32x32x64_S1x1x32x64_0_16_0_0 : ∀ a, (![0, 16, 0, 0] : Fin 4 → Nat) a + S1x1x32x64.size a ≤ S1x32x32x64.size a
  inb_S1x32x64x2048_S1x1x64x2048_0_17_0_0 : ∀ a, (![0, 17, 0, 0] : Fin 4 → Nat) a + S1x1x64x2048.size a ≤ S1x32x64x2048.size a
  inb_S1x32x32x64_S1x1x32x64_0_17_0_0 : ∀ a, (![0, 17, 0, 0] : Fin 4 → Nat) a + S1x1x32x64.size a ≤ S1x32x32x64.size a
  inb_S1x32x64x2048_S1x1x64x2048_0_18_0_0 : ∀ a, (![0, 18, 0, 0] : Fin 4 → Nat) a + S1x1x64x2048.size a ≤ S1x32x64x2048.size a
  inb_S1x32x32x64_S1x1x32x64_0_18_0_0 : ∀ a, (![0, 18, 0, 0] : Fin 4 → Nat) a + S1x1x32x64.size a ≤ S1x32x32x64.size a
  inb_S1x32x64x2048_S1x1x64x2048_0_19_0_0 : ∀ a, (![0, 19, 0, 0] : Fin 4 → Nat) a + S1x1x64x2048.size a ≤ S1x32x64x2048.size a
  inb_S1x32x32x64_S1x1x32x64_0_19_0_0 : ∀ a, (![0, 19, 0, 0] : Fin 4 → Nat) a + S1x1x32x64.size a ≤ S1x32x32x64.size a
  inb_S1x32x64x2048_S1x1x64x2048_0_20_0_0 : ∀ a, (![0, 20, 0, 0] : Fin 4 → Nat) a + S1x1x64x2048.size a ≤ S1x32x64x2048.size a
  inb_S1x32x32x64_S1x1x32x64_0_20_0_0 : ∀ a, (![0, 20, 0, 0] : Fin 4 → Nat) a + S1x1x32x64.size a ≤ S1x32x32x64.size a
  inb_S1x32x64x2048_S1x1x64x2048_0_21_0_0 : ∀ a, (![0, 21, 0, 0] : Fin 4 → Nat) a + S1x1x64x2048.size a ≤ S1x32x64x2048.size a
  inb_S1x32x32x64_S1x1x32x64_0_21_0_0 : ∀ a, (![0, 21, 0, 0] : Fin 4 → Nat) a + S1x1x32x64.size a ≤ S1x32x32x64.size a
  inb_S1x32x64x2048_S1x1x64x2048_0_22_0_0 : ∀ a, (![0, 22, 0, 0] : Fin 4 → Nat) a + S1x1x64x2048.size a ≤ S1x32x64x2048.size a
  inb_S1x32x32x64_S1x1x32x64_0_22_0_0 : ∀ a, (![0, 22, 0, 0] : Fin 4 → Nat) a + S1x1x32x64.size a ≤ S1x32x32x64.size a
  inb_S1x32x64x2048_S1x1x64x2048_0_23_0_0 : ∀ a, (![0, 23, 0, 0] : Fin 4 → Nat) a + S1x1x64x2048.size a ≤ S1x32x64x2048.size a
  inb_S1x32x32x64_S1x1x32x64_0_23_0_0 : ∀ a, (![0, 23, 0, 0] : Fin 4 → Nat) a + S1x1x32x64.size a ≤ S1x32x32x64.size a
  inb_S1x32x64x2048_S1x1x64x2048_0_24_0_0 : ∀ a, (![0, 24, 0, 0] : Fin 4 → Nat) a + S1x1x64x2048.size a ≤ S1x32x64x2048.size a
  inb_S1x32x32x64_S1x1x32x64_0_24_0_0 : ∀ a, (![0, 24, 0, 0] : Fin 4 → Nat) a + S1x1x32x64.size a ≤ S1x32x32x64.size a
  inb_S1x32x64x2048_S1x1x64x2048_0_25_0_0 : ∀ a, (![0, 25, 0, 0] : Fin 4 → Nat) a + S1x1x64x2048.size a ≤ S1x32x64x2048.size a
  inb_S1x32x32x64_S1x1x32x64_0_25_0_0 : ∀ a, (![0, 25, 0, 0] : Fin 4 → Nat) a + S1x1x32x64.size a ≤ S1x32x32x64.size a
  inb_S1x32x64x2048_S1x1x64x2048_0_26_0_0 : ∀ a, (![0, 26, 0, 0] : Fin 4 → Nat) a + S1x1x64x2048.size a ≤ S1x32x64x2048.size a
  inb_S1x32x32x64_S1x1x32x64_0_26_0_0 : ∀ a, (![0, 26, 0, 0] : Fin 4 → Nat) a + S1x1x32x64.size a ≤ S1x32x32x64.size a
  inb_S1x32x64x2048_S1x1x64x2048_0_27_0_0 : ∀ a, (![0, 27, 0, 0] : Fin 4 → Nat) a + S1x1x64x2048.size a ≤ S1x32x64x2048.size a
  inb_S1x32x32x64_S1x1x32x64_0_27_0_0 : ∀ a, (![0, 27, 0, 0] : Fin 4 → Nat) a + S1x1x32x64.size a ≤ S1x32x32x64.size a
  inb_S1x32x64x2048_S1x1x64x2048_0_28_0_0 : ∀ a, (![0, 28, 0, 0] : Fin 4 → Nat) a + S1x1x64x2048.size a ≤ S1x32x64x2048.size a
  inb_S1x32x32x64_S1x1x32x64_0_28_0_0 : ∀ a, (![0, 28, 0, 0] : Fin 4 → Nat) a + S1x1x32x64.size a ≤ S1x32x32x64.size a
  inb_S1x32x64x2048_S1x1x64x2048_0_29_0_0 : ∀ a, (![0, 29, 0, 0] : Fin 4 → Nat) a + S1x1x64x2048.size a ≤ S1x32x64x2048.size a
  inb_S1x32x32x64_S1x1x32x64_0_29_0_0 : ∀ a, (![0, 29, 0, 0] : Fin 4 → Nat) a + S1x1x32x64.size a ≤ S1x32x32x64.size a
  inb_S1x32x64x2048_S1x1x64x2048_0_30_0_0 : ∀ a, (![0, 30, 0, 0] : Fin 4 → Nat) a + S1x1x64x2048.size a ≤ S1x32x64x2048.size a
  inb_S1x32x32x64_S1x1x32x64_0_30_0_0 : ∀ a, (![0, 30, 0, 0] : Fin 4 → Nat) a + S1x1x32x64.size a ≤ S1x32x32x64.size a
  inb_S1x32x64x2048_S1x1x64x2048_0_31_0_0 : ∀ a, (![0, 31, 0, 0] : Fin 4 → Nat) a + S1x1x64x2048.size a ≤ S1x32x64x2048.size a
  inb_S1x32x32x64_S1x1x32x64_0_31_0_0 : ∀ a, (![0, 31, 0, 0] : Fin 4 → Nat) a + S1x1x32x64.size a ≤ S1x32x32x64.size a
  dot_S32x64_S64x2048_S32x2048_1_0_0_1_n_n_wf : DotDims.WF S32x64 S64x2048 S32x2048 [1] [0] [0] [1] [] []
  dot_S32x2048_S64x2048_S32x64_1_1_0_0_n_n_wf : DotDims.WF S32x2048 S64x2048 S32x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x2048.size a ≤ S8x32x64x2048.size a
  hwx0_0 : ∀ i : grid0.Coords, EltTy.bits .f32 = 32 ∨ (Rect.block (s := S8x32x64x2048) S1x32x64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x32x64.size a ≤ S8x32x32x64.size a
  hwx0_4 : ∀ i : grid0.Coords, EltTy.bits .f32 = 32 ∨ (Rect.block (s := S8x32x32x64) S1x32x32x64.size (cc0_transform_4 i) (hinb0_4 i)).WholeWords (EltTy.packing .f32)

variable [Facts₀]

def dot_S32x64_S64x2048_S32x2048_1_0_0_1_n_n : DotDims S32x64 S64x2048 S32x2048 where
  lhsContracting := [1]
  rhsContracting := [0]
  lhsNonContracting := [0]
  rhsNonContracting := [1]
  lhsBatch := []
  rhsBatch := []
  wf := dot_S32x64_S64x2048_S32x2048_1_0_0_1_n_n_wf
def dot_S32x2048_S64x2048_S32x64_1_1_0_0_n_n : DotDims S32x2048 S64x2048 S32x64 where
  lhsContracting := [1]
  rhsContracting := [1]
  lhsNonContracting := [0]
  rhsNonContracting := [0]
  lhsBatch := []
  rhsBatch := []
  wf := dot_S32x2048_S64x2048_S32x64_1_1_0_0_n_n_wf

abbrev win0_0 : Pipeline.Window sig grid0 :=
  Pipeline.Window.ofSpec (Memref.whole main_v1) S1x32x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32x32x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x32x2048x64 : Shape := ⟨4, ![8, 32, 2048, 64]⟩
abbrev S32x64 : Shape := ⟨2, ![32, 64]⟩
abbrev S32 : Shape := ⟨1, ![32]⟩
abbrev S256x2048x64 : Shape := ⟨3, ![256, 2048, 64]⟩
abbrev S256x2048x32 : Shape := ⟨3, ![256, 2048, 32]⟩
abbrev S1x1x32 : Shape := ⟨3, ![1, 1, 32]⟩
abbrev S_ : Shape := ⟨0, ![]⟩
abbrev S256x2048 : Shape := ⟨2, ![256, 2048]⟩
abbrev S256x2048x1 : Shape := ⟨3, ![256, 2048, 1]⟩
abbrev S256x32x64 : Shape := ⟨3, ![256, 32, 64]⟩
abbrev S256x32 : Shape := ⟨2, ![256, 32]⟩
abbrev S256x32x1 : Shape := ⟨3, ![256, 32, 1]⟩
abbrev S1x32x64 : Shape := ⟨3, ![1, 32, 64]⟩
abbrev S8x32x32x64 : Shape := ⟨4, ![8, 32, 32, 64]⟩

abbrev nBuf : Space → Nat
  | .hbm => 36
  | .vmem => 0
  | .smem => 0
  | _ => 0

abbrev bufTy : (tb : Table) → Fin (tcTables nBuf tb) → BufTy
  | .hbm, ⟨0, _⟩ => ⟨S8x32x2048x64, .f32⟩
  | .hbm, ⟨1, _⟩ => ⟨S32x64, .f32⟩
  | .hbm, ⟨2, _⟩ => ⟨S32, .f32⟩
  | .hbm, ⟨3, _⟩ => ⟨S32x64, .f32⟩
  | .hbm, ⟨4, _⟩ => ⟨S256x2048x64, .f32⟩
  | .hbm, ⟨5, _⟩ => ⟨S256x2048x32, .f32⟩
  | .hbm, ⟨6, _⟩ => ⟨S1x1x32, .f32⟩
  | .hbm, ⟨7, _⟩ => ⟨S256x2048x32, .f32⟩
  | .hbm, ⟨8, _⟩ => ⟨S256x2048x32, .f32⟩
  | .hbm, ⟨9, _⟩ => ⟨S_, .f32⟩
  | .hbm, ⟨10, _⟩ => ⟨S256x2048x32, .f32⟩
  | .hbm, ⟨11, _⟩ => ⟨S256x2048x32, .f32⟩
  | .hbm, ⟨12, _⟩ => ⟨S_, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048x1, .f32⟩
  | .hbm, ⟨18, _⟩ => ⟨S256x2048x32, .f32⟩
  | .hbm, ⟨19, _⟩ => ⟨S256x2048x32, .f32⟩
  | .hbm, ⟨20, _⟩ => ⟨S256x2048x32, .f32⟩
  | .hbm, ⟨21, _⟩ => ⟨S_, .f32⟩
  | .hbm, ⟨22, _⟩ => ⟨S256x2048, .f32⟩
  | .hbm, ⟨23, _⟩ => ⟨S256x2048x1, .f32⟩
  | .hbm, ⟨24, _⟩ => ⟨S256x2048x32, .f32⟩
  | .hbm, ⟨25, _⟩ => ⟨S256x2048x32, .f32⟩
  | .hbm, ⟨26, _⟩ => ⟨S256x32x64, .f32⟩
  | .hbm, ⟨27, _⟩ => ⟨S_, .f32⟩
  | .hbm, ⟨28, _⟩ => ⟨S256x32, .f32⟩
  | .hbm, ⟨29, _⟩ => ⟨S256x32x1, .f32⟩
  | .hbm, ⟨30, _⟩ => ⟨S1x32x64, .f32⟩
  | .hbm, ⟨31, _⟩ => ⟨S256x32x64, .f32⟩
  | .hbm, ⟨32, _⟩ => ⟨S256x32x64, .f32⟩
  | .hbm, ⟨33, _⟩ => ⟨S256x32x64, .f32⟩
  | .hbm, ⟨34, _⟩ => ⟨S256x32x64, .f32⟩
  | .hbm, ⟨35, _⟩ => ⟨S8x32x32x64, .f32⟩
  | _, _ => ⟨S8x32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  shapeCasts_S8x32x2048x64_S256x2048x64 : S8x32x2048x64.ShapeCasts S256x2048x64
  bcast_S32_S1x1x32_2 : S32.BroadcastsInDim S1x1x32 (![2] : Fin 1 → Fin S1x1x32.rank)
  bcast_S1x1x32_S256x2048x32_0_1_2 : S1x1x32.BroadcastsInDim S256x2048x32 (![0, 1, 2] : Fin 3 → Fin S256x2048x32.rank)
  bcast_S_S256x2048x32 : S_.BroadcastsInDim S256x2048x32 (![] : Fin 0 → Fin S256x2048x32.rank)
  reducesTo_S256x2048x32_S256x2048_d2 : S256x2048x32.ReducesTo [2] S256x2048
  h_S_ : 0 < S_.numel
  bcast_S_S256x2048 : S_.BroadcastsInDim S256x2048 (![] : Fin 0 → Fin S256x2048.rank)
  bcast_S256x2048_S256x2048x1_0_1 : S256x2048.BroadcastsInDim S256x2048x1 (![0, 1] : Fin 2 → Fin S256x2048x1.rank)
  bcast_S256x2048x1_S256x2048x32_0_1_2 : S256x2048x1.BroadcastsInDim S256x2048x32 (![0, 1, 2] : Fin 3 → Fin S256x2048x32.rank)
  reducesTo_S256x2048x32_S256x32_d1 : S256x2048x32.ReducesTo [1] S256x32
  bcast_S256x32_S256x32x1_0_1 : S256x32.BroadcastsInDim S256x32x1 (![0, 1] : Fin 2 → Fin S256x32x1.rank)
  bcast_S32x64_S1x32x64_1_2 : S32x64.BroadcastsInDim S1x32x64 (![1, 2] : Fin 2 → Fin S1x32x64.rank)
  bcast_S256x32x1_S256x32x64_0_1_2 : S256x32x1.BroadcastsInDim S256x32x64 (![0, 1, 2] : Fin 3 → Fin S256x32x64.rank)
  bcast_S1x32x64_S256x32x64_0_1_2 : S1x32x64.BroadcastsInDim S256x32x64 (![0, 1, 2] : Fin 3 → Fin S256x32x64.rank)
  shapeCasts_S256x32x64_S8x32x32x64 : S256x32x64.ShapeCasts S8x32x32x64
  dot_S256x2048x64_S32x64_S256x2048x32_2_1_01_0_n_n_wf : DotDims.WF S256x2048x64 S32x64 S256x2048x32 [2] [1] [0, 1] [0] [] []
  dot_S256x2048x32_S256x2048x64_S256x32x64_1_1_2_2_0_0_wf : DotDims.WF S256x2048x32 S256x2048x64 S256x32x64 [1] [1] [2] [2] [0] [0]

variable [Facts₀]

def dot_S256x2048x64_S32x64_S256x2048x32_2_1_01_0_n_n : DotDims S256x2048x64 S32x64 S256x2048x32 where
  lhsContracting := [2]
  rhsContracting := [1]
  lhsNonContracting := [0, 1]
  rhsNonContracting := [0]
  lhsBatch := []
  rhsBatch := []
  wf := dot_S256x2048x64_S32x64_S256x2048x32_2_1_01_0_n_n_wf
def dot_S256x2048x32_S256x2048x64_S256x32x64_1_1_2_2_0_0 : DotDims S256x2048x32 S256x2048x64 S256x32x64 where
  lhsContracting := [1]
  rhsContracting := [1]
  lhsNonContracting := [2]
  rhsNonContracting := [2]
  lhsBatch := [0]
  rhsBatch := [0]
  wf := dot_S256x2048x32_S256x2048x64_S256x32x64_1_1_2_2_0_0_wf

class Facts : Prop extends Facts₀ where

variable [Facts]
-- ==== Proof.VladSpec.lean ====
/-
  The pooled descriptor of one slab, as a function on the extended reals.

  For a slab of N feature rows r n (each with C channels), K cluster weights W k with offsets b k, and centroids
  cent k, the soft assignment of row n to cluster k is the softmax over clusters of the logits
  l k n = (sum over c of W k c * r n c) + b k, and the descriptor is
      vlad k c = (sum over n of a k n * r n c) - (sum over n of a k n) * cent k c.
  (One program computes this softmax as exp l / sum exp l; the other first subtracts the row maximum.  That the two
  agree on real logits is LibSoftmaxShift.softmax_shift.)
-/
import Idealize.ShloMosaic.PureOps.Ideal.Laws

noncomputable section

open scoped BigOperators

namespace VladSpec

open Idealize.ShloMosaic

variable {K C N : ℕ}

/-- The logit of cluster k at feature row n. -/
def logit (W : Fin K → Fin C → EReal) (b : Fin K → EReal) (r : Fin N → Fin C → EReal) (k : Fin K) (n : Fin N) : EReal :=
  (∑ c : Fin C, W k c * r n c) + b k

/-- The soft assignment of row n to cluster k: the softmax over the clusters, with no shift. -/
def assign (W : Fin K → Fin C → EReal) (b : Fin K → EReal) (r : Fin N → Fin C → EReal) (k : Fin K) (n : Fin N) : EReal :=
  Ideal.div (Ideal.exp (logit W b r k n)) (∑ j : Fin K, Ideal.exp (logit W b r j n))

/-- The descriptor: assignment-weighted feature sums less the assignment mass times the centroid. -/
def vlad (W : Fin K → Fin C → EReal) (b : Fin K → EReal) (cent : Fin K → Fin C → EReal) (r : Fin N → Fin C → EReal)
    (k : Fin K) (c : Fin C) : EReal :=
  (∑ n : Fin N, assign W b r k n * r n c) - (∑ n : Fin N, assign W b r k n) * cent k c

end VladSpec

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibMatmulNT.lean ====
/-
  A matrix product of a row-major `M × K` block against an `N × K` block whose LAST axis is contracted (the
  right operand enters transposed: the left operand's axis 1 is contracted with the right operand's axis 1),
  accumulated into the zero block and read at the extended reals: entry `(p, q)` of the result is the sum over
  `k` of `x[p, k] · w[q, k]`.  The contraction index of the matrix unit ranges over a one-axis shape of extent
  `K`; it is re-indexed to `Fin K`, and the two operand indices that the dimension record computes are named
  coordinate by coordinate.  General in the three extents and in the operands' float formats.
-/
import Idealize.ShloMosaic.PureOps.Ideal.Laws
import Idealize.ShloMosaic.Lib.ValueIdx

noncomputable section

open scoped BigOperators

namespace LibMatmulNT

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl _ _).trans hk

/-- The right operand's index at output index `(p, q)` and contraction index `k` is `(q, k)`: its row is the
    output's column. -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl _ _).trans hk

/-- Entry `(p, q)` of `x · wᵀ` accumulated into zero is `∑ k, x[p, k] · w[q, k]` on the extended reals. -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant (F := Ideal) ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]

end LibMatmulNT

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.LibRowReduce.lean ====
/-
  Reductions down the rows of an `[m, N]` array, read at a column.

  A kernel that keeps the batch on the lanes reduces over the few rows of an `[m, N]` value (axis 0), obtaining a vector of
  length `N`, and views it as the one row of a `[1, N]` array (a sum or a maximum taken with the axis kept).  At the extended
  reals the entry of that row at column `q` is the sum, or the fold of `max` from the accumulator's value, over the `m` entries
  of column `q`.  General in both extents.
-/
import Idealize.ShloMosaic.PureOps.Ideal.Laws
import Idealize.ShloMosaic.Lib.ValueIdx
import Idealize.ShloMosaic.Lib.ValueLayout

noncomputable section

open scoped BigOperators

namespace LibRowReduce

open Idealize.ShloMosaic Idealize.ShloMosaic.ValueIdx

variable {m N : Nat}

/-- The reduced index `q` with row `k` put back is `(k, q)`. -/
theorem lift_rows (h : (⟨2, ![m, N]⟩ : Shape).Reduces [0] (⟨1, ![N]⟩ : Shape)) (q : Fin N)
    (k : Fin ((⟨2, ![m, N]⟩ : Shape).size 0)) : h.lift (ix1 q) k = ix2 (⟨k.val, k.isLt⟩ : Fin m) q := by
  funext c; apply Fin.ext
  fin_cases c <;> rfl

/-- The sum down the rows, kept as one row: at column `q` it is the sum of column `q`'s entries. -/
theorem sumRows_apply (V : FVec Ideal ⟨2, ![m, N]⟩ .f32) (h : (⟨2, ![m, N]⟩ : Shape).Reduces [0] (⟨1, ![N]⟩ : Shape))
    (hφ : FKind.Formats .f32) (hacc : (0x00000000#32 : BitVec 32) = 0x00000000#32)
    (hs : (⟨1, ![N]⟩ : Shape).ShapeCasts ⟨2, ![1, N]⟩) (u : Fin 1) (q : Fin N) :
    shapeCast ⟨2, ![1, N]⟩ (multiReduction .add [0] ⟨1, ![N]⟩ V 0x00000000#32 h hφ hacc) hs (ix2 u q)
      = ∑ a : Fin m, V (ix2 a q) := by
  refine (shapeCast_a_1a_apply _ hs u q).trans ?_
  refine (Ideal.multiReduction_add_single V 0x00000000#32 h hφ hacc (ix1 q)).trans ?_
  exact Finset.sum_congr rfl fun k _ => congrArg V (lift_rows h q k)

/-- The maximum down the rows from the accumulator's value, kept as one row: at column `q` it is the fold of `max` over
    column `q`'s entries. -/
theorem maxRows_apply (V : FVec Ideal ⟨2, ![m, N]⟩ .f32) (acc : BitVec 32) (h : (⟨2, ![m, N]⟩ : Shape).Reduces [0] (⟨1, ![N]⟩ : Shape))
    (hφ : FKind.Formats .f32) (hacc' : acc = FKind.maximumf.neutral .f32 hφ)
    (hs : (⟨1, ![N]⟩ : Shape).ShapeCasts ⟨2, ![1, N]⟩) (u : Fin 1) (q : Fin N) :
    shapeCast ⟨2, ![1, N]⟩ (multiReduction .maximumf [0] ⟨1, ![N]⟩ V acc h hφ hacc') hs (ix2 u q)
      = (Finset.univ : Finset (Fin m)).fold max (Ideal.ofBits .f32 acc) (fun a => V (ix2 a q)) := by
  refine (shapeCast_a_1a_apply _ hs u q).trans ?_
  refine (Ideal.multiReduction_maximumf_single V acc h hφ hacc' (ix1 q)).trans ?_
  exact congrArg (fun f => Finset.fold max (Ideal.ofBits .f32 acc) f (Finset.univ : Finset (Fin m)))
    (funext fun k => congrArg V (lift_rows h q k))

end LibRowReduce

end
-- ==== Proof.LibLaneReduce.lean ====
/-
  Reductions along the lanes of an `[r, n]` block, read at a row.

  A kernel that keeps a quantity's index on the rows reduces over the lanes of an `[r, n]` value (axis 1), obtaining a
  vector of length `r`, and views it as an `[r, 1]` column (a sum or a maximum taken with the axis kept).  At the
  extended reals the entry of that column at row `p` is the sum, or the fold of `max` from the accumulator's value, over
  the `n` entries of row `p`; where the maximum is first taken once more against the accumulator's value broadcast (as
  a lowered softmax does), it is the `max` of that value with the fold.  General in both extents.
-/
import Idealize.ShloMosaic.PureOps.Ideal.Laws
import Idealize.ShloMosaic.Lib.ValueIdx
import Idealize.ShloMosaic.Lib.Pipeline.Value

noncomputable section

open scoped BigOperators

namespace LibLaneReduce

open Idealize.ShloMosaic Idealize.ShloMosaic.ValueIdx

variable {r n : Nat}

/-- The reduced index `p` with lane `k` put back is `(p, k)`. -/
theorem lift_lanes (h : (⟨2, ![r, n]⟩ : Shape).Reduces [1] (⟨1, ![r]⟩ : Shape)) (p : Fin r)
    (k : Fin ((⟨2, ![r, n]⟩ : Shape).size 1)) : h.lift (ix1 p) k = ix2 p (⟨k.val, k.isLt⟩ : Fin n) := by
  funext c; apply Fin.ext
  fin_cases c <;> rfl

/-- A vector of length `r` viewed as a column `[r, 1]` reads, at `(p, 0)`, the vector at `p`: the reshape keeps the
    row-major position `p = p · 1 + 0`. -/
theorem col_apply {α : Type} (x : (⟨1, ![r]⟩ : Shape).Idx → α) (hs : (⟨1, ![r]⟩ : Shape).ShapeCasts ⟨2, ![r, 1]⟩) (p : Fin r) :
    shapeCast ⟨2, ![r, 1]⟩ x hs (ix2 p (0 : Fin 1)) = x (ix1 p) :=
  shapeCast_apply x hs _ _ (by
    rw [Shape.rowMajor_val_one, Shape.rowMajor_val_two]
    show p.val = p.val * 1 + 0
    omega)

/-- A sum along the lanes kept as a column: at row `p` the sum of row `p`. -/
theorem sumLanes_apply (V : FVec Ideal ⟨2, ![r, n]⟩ .f32) (h : (⟨2, ![r, n]⟩ : Shape).Reduces [1] (⟨1, ![r]⟩ : Shape))
    (hφ : FKind.Formats .f32) (hacc : (0x00000000#32 : BitVec 32) = 0x00000000#32)
    (hs : (⟨1, ![r]⟩ : Shape).ShapeCasts ⟨2, ![r, 1]⟩) (p : Fin r) :
    shapeCast ⟨2, ![r, 1]⟩ (multiReduction .add [1] ⟨1, ![r]⟩ V 0x00000000#32 h hφ hacc) hs (ix2 p (0 : Fin 1))
      = ∑ k : Fin n, V (ix2 p k) := by
  refine (col_apply _ hs p).trans ?_
  refine (Ideal.multiReduction_add_single V 0x00000000#32 h hφ hacc (ix1 p)).trans ?_
  exact Finset.sum_congr rfl fun k _ => congrArg V (lift_lanes h p k)

/-- A maximum along the lanes from the accumulator's value, taken once more against that value, kept as a column:
    at row `p` the `max` of that value with the fold of `max` over row `p`. -/
theorem maxLanes_apply (V : FVec Ideal ⟨2, ![r, n]⟩ .f32) (acc : BitVec 32) (h : (⟨2, ![r, n]⟩ : Shape).Reduces [1] (⟨1, ![r]⟩ : Shape))
    (hφ : FKind.Formats .f32) (hacc' : acc = FKind.maximumf.neutral .f32 hφ)
    (hs : (⟨1, ![r]⟩ : Shape).ShapeCasts ⟨2, ![r, 1]⟩) (p : Fin r) :
    shapeCast ⟨2, ![r, 1]⟩ (maximumf (broadcast ⟨1, ![r]⟩ (Scalar.ofBits .f32 acc)) (multiReduction .maximumf [1] ⟨1, ![r]⟩ V acc h hφ hacc')) hs (ix2 p (0 : Fin 1))
      = max (Ideal.ofBits .f32 acc) ((Finset.univ : Finset (Fin n)).fold max (Ideal.ofBits .f32 acc) fun k => V (ix2 p k)) := by
  refine (col_apply _ hs p).trans ?_
  refine congrArg (max (Ideal.ofBits .f32 acc)) ?_
  refine (Ideal.multiReduction_maximumf_single V acc h hφ hacc' (ix1 p)).trans ?_
  exact congrArg (fun f => Finset.fold max (Ideal.ofBits .f32 acc) f (Finset.univ : Finset (Fin n)))
    (funext fun k => congrArg V (lift_lanes h p k))

end LibLaneReduce

end
-- ==== Proof.LibDropUnitAxes.lean ====
/-
  A block with TWO leading unit axes viewed without them, read at an index: a [1, 1, a, b] array cast to [a, b]
  reads, at (i, j), the operand at (0, 0, i, j).  (The library's Lib/ValueLayout.lean has the single leading unit
  axis.)  General in both extents and in the element type.
-/
import Idealize.ShloMosaic.Lib.Pipeline.Value
import Idealize.ShloMosaic.Lib.ValueIdx

noncomputable section

namespace LibDropUnitAxes

open Idealize.ShloMosaic Idealize.ShloMosaic.ValueIdx

/-- A [1, 1, a, b] block viewed [a, b] reads, at (i, j), the block at (0, 0, i, j): the two unit coordinates contribute
    nothing to the row-major position. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show (((0 : Fin 1).val * 1 + (0 : Fin 1).val) * a + i.val) * b + j.val = i.val * b + j.val
    simp only [Fin.val_zero, Nat.zero_mul, Nat.zero_add, Nat.mul_one, Nat.add_zero])

end LibDropUnitAxes

end
-- ==== Proof.SlabValue.lean ====
/-
  One slab of the kernel: the body's arithmetic for ONE [C, N] = [64, 2048] block of features (stored with the
  feature row on the lanes), the [K, C] = [32, 64] weights, the [K, 1] offsets and the [K, C] centroids, as a single
  function, and what it holds at an index over the extended reals.

  At (k, c) the slab's result is the pooled descriptor of VladSpec: the logits are the weights times the block
  (a matrix product into zero) plus the offset column spread along the lanes; their exponentials are divided by the
  column sums over the K clusters (a sum down the rows, spread back over the rows); the descriptor is the product of
  those assignments with the block contracted over the lanes, less the row sums of the assignments (a sum along the
  lanes, spread over the channels) times the centroids.  The changes of float format are the identity.
-/
import proofs.«126290_g53979148976680_feedfinal_401_12_alg».proof.Proof.Gen.KernelIdeal
import proofs.«126290_g53979148976680_feedfinal_401_12_alg».proof.Proof.VladSpec
import proofs.«126290_g53979148976680_feedfinal_401_12_alg».proof.Proof.LibMatmulNN
import proofs.«126290_g53979148976680_feedfinal_401_12_alg».proof.Proof.LibMatmulNT
import proofs.«126290_g53979148976680_feedfinal_401_12_alg».proof.Proof.LibColumnLayout
import proofs.«126290_g53979148976680_feedfinal_401_12_alg».proof.Proof.LibRowReduce
import proofs.«126290_g53979148976680_feedfinal_401_12_alg».proof.Proof.LibLaneReduce
import proofs.«126290_g53979148976680_feedfinal_401_12_alg».proof.Proof.LibDropUnitAxes
import Idealize.ShloMosaic.Lib.ValueLayout
import Idealize.ShloMosaic.Lib.ValueIdx
import Idealize.ShloMosaic.Lib.Pipeline.Value

noncomputable section

open scoped BigOperators

namespace Cert.KernelIdeal.Slab

open Cert.KernelIdeal Cert.KernelIdeal.Facts₀ Cert.KernelIdeal.Facts Idealize.ShloMosaic Idealize.ShloMosaic.ValueIdx

variable {F : FTy → Type} [FloatOps F]

/-- The feature block as the matrix unit takes it: [64, 2048], narrowed. -/
def blockB (r : Vec F S1x1x64x2048 .f32) : FVec F S64x2048 .bf16 :=
  truncf .bf16 (shapeCast S64x2048 r shapeCasts_S1x1x64x2048_S64x2048) bitsLt_bf16_f32

/-- The logits of one slab, [K, N]: weights times block, plus the offset column along the lanes. -/
def logits (w : Vec F S32x64 .f32) (b2 : FVec F S32x1 .f32) (r : Vec F S1x1x64x2048 .f32) : FVec F S32x2048 .f32 :=
  addf (matmul dot_S32x64_S64x2048_S32x2048_1_0_0_1_n_n none w (blockB r) (constant S32x2048 .f32 0x00000000#32))
    (broadcastTo S32x2048 b2 broadcasts_S32x1_S32x2048)

/-- The soft assignments of one slab, [K, N]: the exponentials over their column sums. -/
def assigns (w : Vec F S32x64 .f32) (b2 : FVec F S32x1 .f32) (r : Vec F S1x1x64x2048 .f32) : FVec F S32x2048 .f32 :=
  divf (exp (logits w b2 r))
    (broadcastTo S32x2048
      (shapeCast S1x2048 (multiReduction .add [0] S2048 (exp (logits w b2 r)) 0x00000000#32 reduces_S32x2048_S2048 (.inl rfl) rfl)
        shapeCasts_S2048_S1x2048)
      broadcasts_S1x2048_S32x2048)

/-- The body's arithmetic for one slab: weights `w`, offset column `b2`, centroids `cent`, feature block `r`. -/
def slab (w : Vec F S32x64 .f32) (b2 : FVec F S32x1 .f32) (cent : Vec F S32x64 .f32) (r : Vec F S1x1x64x2048 .f32) :
    FVec F S1x1x32x64 .f32 :=
  shapeCast S1x1x32x64
    (subf
      (matmul dot_S32x2048_S64x2048_S32x64_1_1_0_0_n_n none (truncf .bf16 (assigns w b2 r) bitsLt_bf16_f32) (blockB r)
        (constant S32x64 .f32 0x00000000#32))
      (mulf
        (broadcastTo S32x64
          (shapeCast S32x1 (multiReduction .add [1] S32 (assigns w b2 r) 0x00000000#32 reduces_S32x2048_S32 (.inl rfl) rfl)
            shapeCasts_S32_S32x1)
          broadcasts_S32x1_S32x64)
        cent))
    shapeCasts_S32x64_S1x1x32x64

/-- The features of the slab, row n and channel c: the block stores them transposed. -/
abbrev feat (r : Vec Ideal S1x1x64x2048 .f32) : Fin 2048 → Fin 64 → EReal := fun n c => r (ix4 (0 : Fin 1) (0 : Fin 1) c n)
/-- The weights, row k and channel c. -/
abbrev mat (w : Vec Ideal S32x64 .f32) : Fin 32 → Fin 64 → EReal := fun k c => w (ix2 k c)
/-- The offsets, one per cluster. -/
abbrev col (b2 : FVec Ideal S32x1 .f32) : Fin 32 → EReal := fun k => b2 (ix2 k (0 : Fin 1))

/-- The narrowed block at (c, n) is the feature of row n at channel c. -/
theorem blockB_apply (r : Vec Ideal S1x1x64x2048 .f32) (c : Fin 64) (n : Fin 2048) :
    blockB r (ix2 c n) = feat r n c := by
  unfold blockB
  rw [truncf_apply]
  exact LibDropUnitAxes.shapeCast_11ab_ab_apply r shapeCasts_S1x1x64x2048_S64x2048 c n

/-- The slab's logits at (k, n). -/
theorem logits_apply (w : Vec Ideal S32x64 .f32) (b2 : FVec Ideal S32x1 .f32) (r : Vec Ideal S1x1x64x2048 .f32)
    (k : Fin 32) (n : Fin 2048) :
    logits w b2 r (ix2 k n) = VladSpec.logit (mat w) (col b2) (feat r) k n := by
  unfold logits
  rw [addf_apply]
  refine congrArg₂ (· + ·) ?_ (broadcastTo_a1_ab_apply b2 broadcasts_S32x1_S32x2048 k n)
  refine (LibMatmulNN.matmul_zero_apply 32 64 2048 none w (blockB r) k n).trans ?_
  exact Finset.sum_congr rfl fun c _ => congrArg (w (ix2 k c) * ·) (blockB_apply r c n)

/-- The slab's assignments at (k, n). -/
theorem assigns_apply (w : Vec Ideal S32x64 .f32) (b2 : FVec Ideal S32x1 .f32) (r : Vec Ideal S1x1x64x2048 .f32)
    (k : Fin 32) (n : Fin 2048) :
    assigns w b2 r (ix2 k n) = VladSpec.assign (mat w) (col b2) (feat r) k n := by
  unfold assigns VladSpec.assign
  rw [divf_apply]
  refine congrArg₂ Ideal.div ?_ ?_
  · show Ideal.exp (logits w b2 r (ix2 k n)) = _
    rw [logits_apply]
  · rw [broadcastTo_1b_ab_apply]
    refine (LibRowReduce.sumRows_apply (exp (logits w b2 r)) reduces_S32x2048_S2048 (.inl rfl) rfl shapeCasts_S2048_S1x2048 0 n).trans ?_
    refine Finset.sum_congr rfl fun j _ => ?_
    show Ideal.exp (logits w b2 r (ix2 j n)) = _
    rw [logits_apply]

/-- THE SLAB AT AN INDEX: the pooled descriptor of its features, weights, offsets and centroids. -/
theorem slab_apply (w : Vec Ideal S32x64 .f32) (b2 : FVec Ideal S32x1 .f32) (cent : Vec Ideal S32x64 .f32)
    (r : Vec Ideal S1x1x64x2048 .f32) (u u' : Fin 1) (k : Fin 32) (c : Fin 64) :
    slab w b2 cent r (ix4 u u' k c) = VladSpec.vlad (mat w) (col b2) (mat cent) (feat r) k c := by
  unfold slab VladSpec.vlad
  rw [shapeCast_ab_11ab_apply, subf_apply, mulf_apply]
  refine congrArg₂ (· - ·) ?_ (congrArg (· * cent (ix2 k c)) ?_)
  · refine (LibMatmulNT.matmul_zero_apply 32 2048 64 none (truncf .bf16 (assigns w b2 r) bitsLt_bf16_f32) (blockB r) k c).trans ?_
    refine Finset.sum_congr rfl fun n _ => ?_
    rw [truncf_apply, assigns_apply, blockB_apply]
  · rw [broadcastTo_a1_ab_apply]
    refine (LibLaneReduce.sumLanes_apply (assigns w b2 r) reduces_S32x2048_S32 (.inl rfl) rfl shapeCasts_S32_S32x1 k).trans ?_
    exact Finset.sum_congr rfl fun n _ => assigns_apply w b2 r k n

end Cert.KernelIdeal.Slab

end
-- ==== Proof.Pieces.lean ====
/-
  What the kernel's body leaves in the output block, as ONE function of the input blocks.

  The body treats the [1, 32, 64, 2048] feature block as 32 slabs [64, 2048]; for slab i it computes the slab's
  descriptor (SlabValue) from the weights, the offset column and the centroids, and stores it at rows (0, i, ·, ·) of
  the [1, 32, 32, 64] output block.  The 32 stored values are the same function of their slab; the stores tile the
  block; so the block at (0, i, k, c) is the descriptor of slab i at (k, c).
-/
import proofs.«126290_g53979148976680_feedfinal_401_12_alg».proof.Proof.Gen.KernelIdeal.Frame
import proofs.«126290_g53979148976680_feedfinal_401_12_alg».proof.Proof.SlabValue

set_option maxRecDepth 16384

noncomputable section

namespace Cert.KernelIdeal.Pieces

open Cert.KernelIdeal Cert.KernelIdeal.Gen Cert.KernelIdeal.Slab Cert.KernelIdeal.Facts₀ Cert.KernelIdeal.Facts
open Idealize.ShloMosaic Idealize.ShloMosaic.ValueIdx

variable {F : FTy → Type} [FloatOps F]

/-! ## Each stored value is the slab function of its loads -/

theorem pay_0 (w : Vec F S32x64 .f32) (bc : Vec F S32x1 .f32) (cent : Vec F S32x64 .f32) (r : Vec F S1x1x64x2048 .f32) :
    k0_pay3 w bc cent r = slab w (k0_pay2 bc) cent r := rfl
theorem pay_1 (w : Vec F S32x64 .f32) (bc : Vec F S32x1 .f32) (cent : Vec F S32x64 .f32) (r : Vec F S1x1x64x2048 .f32) :
    k0_pay7 cent (k0_pay4 r) (k0_pay5 w bc r) (k0_pay6 w bc r) = slab w (k0_pay2 bc) cent r := rfl
theorem pay_2 (w : Vec F S32x64 .f32) (bc : Vec F S32x1 .f32) (cent : Vec F S32x64 .f32) (r : Vec F S1x1x64x2048 .f32) :
    k0_pay8 w (k0_pay2 bc) cent r = slab w (k0_pay2 bc) cent r := rfl
theorem pay_3 (w : Vec F S32x64 .f32) (bc : Vec F S32x1 .f32) (cent : Vec F S32x64 .f32) (r : Vec F S1x1x64x2048 .f32) :
    k0_pay10 w (k0_pay2 bc) cent (k0_pay9 r) = slab w (k0_pay2 bc) cent r := rfl
theorem pay_4 (w : Vec F S32x64 .f32) (bc : Vec F S32x1 .f32) (cent : Vec F S32x64 .f32) (r : Vec F S1x1x64x2048 .f32) :
    k0_pay11 w (k0_pay2 bc) cent r = slab w (k0_pay2 bc) cent r := rfl
theorem pay_5 (w : Vec F S32x64 .f32) (bc : Vec F S32x1 .f32) (cent : Vec F S32x64 .f32) (r : Vec F S1x1x64x2048 .f32) :
    k0_pay12 w (k0_pay2 bc) cent r = slab w (k0_pay2 bc) cent r := rfl
theorem pay_6 (w : Vec F S32x64 .f32) (bc : Vec F S32x1 .f32) (cent : Vec F S32x64 .f32) (r : Vec F S1x1x64x2048 .f32) :
    k0_pay17 (k0_pay15 w (k0_pay2 bc) r) (k0_pay16 w (k0_pay2 bc) cent r) = slab w (k0_pay2 bc) cent r := rfl
theorem pay_7 (w : Vec F S32x64 .f32) (bc : Vec F S32x1 .f32) (cent : Vec F S32x64 .f32) (r : Vec F S1x1x64x2048 .f32) :
    k0_pay18 w (k0_pay2 bc) cent r = slab w (k0_pay2 bc) cent r := rfl
theorem pay_8 (w : Vec F S32x64 .f32) (bc : Vec F S32x1 .f32) (cent : Vec F S32x64 .f32) (r : Vec F S1x1x64x2048 .f32) :
    k0_pay21 cent (k0_pay19 r) (k0_pay20 w (k0_pay2 bc) r) = slab w (k0_pay2 bc) cent r := rfl
theorem pay_9 (w : Vec F S32x64 .f32) (bc : Vec F S32x1 .f32) (cent : Vec F S32x64 .f32) (r : Vec F S1x1x64x2048 .f32) :
    k0_pay22 w (k0_pay2 bc) cent r = slab w (k0_pay2 bc) cent r := rfl
theorem pay_10 (w : Vec F S32x64 .f32) (bc : Vec F S32x1 .f32) (cent : Vec F S32x64 .f32) (r : Vec F S1x1x64x2048 .f32) :
    k0_pay25 (k0_pay2 bc) cent (k0_pay23 r) (k0_pay24 w r) = slab w (k0_pay2 bc) cent r := rfl
theorem pay_11 (w : Vec F S32x64 .f32) (bc : Vec F S32x1 .f32) (cent : Vec F S32x64 .f32) (r : Vec F S1x1x64x2048 .f32) :
    k0_pay26 w (k0_pay2 bc) cent r = slab w (k0_pay2 bc) cent r := rfl
theorem pay_12 (w : Vec F S32x64 .f32) (bc : Vec F S32x1 .f32) (cent : Vec F S32x64 .f32) (r : Vec F S1x1x64x2048 .f32) :
    k0_pay27 w (k0_pay2 bc) cent r = slab w (k0_pay2 bc) cent r := rfl
theorem pay_13 (w : Vec F S32x64 .f32) (bc : Vec F S32x1 .f32) (cent : Vec F S32x64 .f32) (r : Vec F S1x1x64x2048 .f32) :
    k0_pay29 (k0_pay28 w (k0_pay2 bc) cent r) = slab w (k0_pay2 bc) cent r := rfl
theorem pay_14 (w : Vec F S32x64 .f32) (bc : Vec F S32x1 .f32) (cent : Vec F S32x64 .f32) (r : Vec F S1x1x64x2048 .f32) :
    k0_pay30 w (k0_pay2 bc) cent r = slab w (k0_pay2 bc) cent r := rfl
theorem pay_15 (w : Vec F S32x64 .f32) (bc : Vec F S32x1 .f32) (cent : Vec F S32x64 .f32) (r : Vec F S1x1x64x2048 .f32) :
    k0_pay34 cent (k0_pay31 r) (k0_pay32 w (k0_pay2 bc) r) (k0_pay33 w (k0_pay2 bc) r) (constant S32x64 .f32 0x00000000#32) = slab w (k0_pay2 bc) cent r := rfl
theorem pay_16 (w : Vec F S32x64 .f32) (bc : Vec F S32x1 .f32) (cent : Vec F S32x64 .f32) (r : Vec F S1x1x64x2048 .f32) :
    k0_pay35 w (k0_pay2 bc) cent r = slab w (k0_pay2 bc) cent r := rfl
theorem pay_17 (w : Vec F S32x64 .f32) (bc : Vec F S32x1 .f32) (cent : Vec F S32x64 .f32) (r : Vec F S1x1x64x2048 .f32) :
    k0_pay38 cent (k0_pay36 r) (k0_pay37 w (k0_pay2 bc) r) = slab w (k0_pay2 bc) cent r := rfl
theorem pay_18 (w : Vec F S32x64 .f32) (bc : Vec F S32x1 .f32) (cent : Vec F S32x64 .f32) (r : Vec F S1x1x64x2048 .f32) :
    k0_pay39 w (k0_pay2 bc) cent r = slab w (k0_pay2 bc) cent r := rfl
theorem pay_19 (w : Vec F S32x64 .f32) (bc : Vec F S32x1 .f32) (cent : Vec F S32x64 .f32) (r : Vec F S1x1x64x2048 .f32) :
    k0_pay40 w (k0_pay2 bc) cent r = slab w (k0_pay2 bc) cent r := rfl
theorem pay_20 (w : Vec F S32x64 .f32) (bc : Vec F S32x1 .f32) (cent : Vec F S32x64 .f32) (r : Vec F S1x1x64x2048 .f32) :
    k0_pay42 (k0_pay41 w (k0_pay2 bc) cent r) = slab w (k0_pay2 bc) cent r := rfl
theorem pay_21 (w : Vec F S32x64 .f32) (bc : Vec F S32x1 .f32) (cent : Vec F S32x64 .f32) (r : Vec F S1x1x64x2048 .f32) :
    k0_pay43 w (k0_pay2 bc) cent r = slab w (k0_pay2 bc) cent r := rfl
theorem pay_22 (w : Vec F S32x64 .f32) (bc : Vec F S32x1 .f32) (cent : Vec F S32x64 .f32) (r : Vec F S1x1x64x2048 .f32) :
    k0_pay47 cent (k0_pay45 w (k0_pay2 bc) r) (k0_pay46 w (k0_pay2 bc) r) = slab w (k0_pay2 bc) cent r := rfl
theorem pay_23 (w : Vec F S32x64 .f32) (bc : Vec F S32x1 .f32) (cent : Vec F S32x64 .f32) (r : Vec F S1x1x64x2048 .f32) :
    k0_pay48 w (k0_pay2 bc) cent r = slab w (k0_pay2 bc) cent r := rfl
theorem pay_24 (w : Vec F S32x64 .f32) (bc : Vec F S32x1 .f32) (cent : Vec F S32x64 .f32) (r : Vec F S1x1x64x2048 .f32) :
    k0_pay51 cent (k0_pay49 r) (k0_pay50 w (k0_pay2 bc) r) = slab w (k0_pay2 bc) cent r := rfl
theorem pay_25 (w : Vec F S32x64 .f32) (bc : Vec F S32x1 .f32) (cent : Vec F S32x64 .f32) (r : Vec F S1x1x64x2048 .f32) :
    k0_pay52 w (k0_pay2 bc) cent r = slab w (k0_pay2 bc) cent r := rfl
theorem pay_26 (w : Vec F S32x64 .f32) (bc : Vec F S32x1 .f32) (cent : Vec F S32x64 .f32) (r : Vec F S1x1x64x2048 .f32) :
    k0_pay53 w (k0_pay2 bc) cent r = slab w (k0_pay2 bc) cent r := rfl
theorem pay_27 (w : Vec F S32x64 .f32) (bc : Vec F S32x1 .f32) (cent : Vec F S32x64 .f32) (r : Vec F S1x1x64x2048 .f32) :
    k0_pay55 (k0_pay54 w (k0_pay2 bc) cent r) = slab w (k0_pay2 bc) cent r := rfl
theorem pay_28 (w : Vec F S32x64 .f32) (bc : Vec F S32x1 .f32) (cent : Vec F S32x64 .f32) (r : Vec F S1x1x64x2048 .f32) :
    k0_pay56 w (k0_pay2 bc) cent r = slab w (k0_pay2 bc) cent r := rfl
theorem pay_29 (w : Vec F S32x64 .f32) (bc : Vec F S32x1 .f32) (cent : Vec F S32x64 .f32) (r : Vec F S1x1x64x2048 .f32) :
    k0_pay61 cent (k0_pay59 w (k0_pay2 bc) r) (k0_pay60 w (k0_pay2 bc) r) = slab w (k0_pay2 bc) cent r := rfl
theorem pay_30 (w : Vec F S32x64 .f32) (bc : Vec F S32x1 .f32) (cent : Vec F S32x64 .f32) (r : Vec F S1x1x64x2048 .f32) :
    k0_pay62 w (k0_pay2 bc) cent r = slab w (k0_pay2 bc) cent r := rfl
theorem pay_31 (w : Vec F S32x64 .f32) (bc : Vec F S32x1 .f32) (cent : Vec F S32x64 .f32) (r : Vec F S1x1x64x2048 .f32) :
    k0_pay1 cent (k0_pay63 r) (k0_pay64 w (k0_pay2 bc) r) (k0_pay65 w (k0_pay2 bc) r) = slab w (k0_pay2 bc) cent r := rfl

/-! ## The block as one function -/

/-- Slab i of the feature block. -/
def slabOf (x0 : Vec F S1x32x64x2048 .f32) (i : Fin 32) : Vec F S1x1x64x2048 .f32 :=
  fun z => x0 (ix4 (0 : Fin 1) i (⟨(z 2).val, (z 2).isLt⟩ : Fin 64) (⟨(z 3).val, (z 3).isLt⟩ : Fin 2048))

/-- The output block: at (0, i, k, c) the descriptor of slab i at (k, c). -/
def blockOut (x0 : Vec F S1x32x64x2048 .f32) (x1 : Vec F S32x64 .f32) (x2 : Vec F S32x1 .f32) (x3 : Vec F S32x64 .f32) :
    Vec F S1x32x32x64 .f32 :=
  fun y => slab x1 x2 x3 (slabOf x0 (⟨(y 1).val, (y 1).isLt⟩ : Fin 32))
    (ix4 (0 : Fin 1) (0 : Fin 1) (⟨(y 2).val, (y 2).isLt⟩ : Fin 32) (⟨(y 3).val, (y 3).isLt⟩ : Fin 64))

theorem hz2 : (![0, 0] : Fin 2 → Nat) = fun _ => 0 := funext fun a => by fin_cases a <;> rfl

/-- A load of slab i through its rectangle reads slab i. -/
theorem ld_slab (x0 : Vec F S1x32x64x2048 .f32) (i : ℕ) (hi : i < 32)
    (inb : ∀ a, (![0, i, 0, 0] : Fin 4 → Nat) a + S1x1x64x2048.size a ≤ S1x32x64x2048.size a) :
    View.ld x0 (Rect.unit (s := S1x32x64x2048) ![0, i, 0, 0] S1x1x64x2048.size inb) = slabOf x0 ⟨i, hi⟩ := by
  funext z
  show x0 ((Rect.unit (s := S1x32x64x2048) ![0, i, 0, 0] S1x1x64x2048.size inb).idx z) = x0 _
  refine congrArg x0 (funext fun a => Fin.ext ?_)
  match a with
  | ⟨0, _⟩ => show 0 + 1 * (z 0).val = 0; have h : (z 0).val < 1 := (z 0).isLt; omega
  | ⟨1, _⟩ => show i + 1 * (z 1).val = i; have h : (z 1).val < 1 := (z 1).isLt; omega
  | ⟨2, _⟩ => show 0 + 1 * (z 2).val = (z 2).val; omega
  | ⟨3, _⟩ => show 0 + 1 * (z 3).val = (z 3).val; omega

/-- The value stored for slab i, at its own index, is the block function at the place the store puts it. -/
theorem piece_eq (x0 : Vec F S1x32x64x2048 .f32) (x1 : Vec F S32x64 .f32) (x2 : Vec F S32x1 .f32) (x3 : Vec F S32x64 .f32)
    (i : ℕ) (hi : i < 32)
    (inbR : ∀ a, (![0, i, 0, 0] : Fin 4 → Nat) a + S1x1x64x2048.size a ≤ S1x32x64x2048.size a)
    (inbO : ∀ a, (![0, i, 0, 0] : Fin 4 → Nat) a + S1x1x32x64.size a ≤ S1x32x32x64.size a)
    (x : S1x1x32x64.Idx) :
    slab (View.ld x1 r0_0) (k0_pay2 (View.ld x2 r0_1)) (View.ld x3 r0_0)
        (View.ld x0 (Rect.unit (s := S1x32x64x2048) ![0, i, 0, 0] S1x1x64x2048.size inbR)) x
      = blockOut x0 x1 x2 x3 ((Rect.unit (s := S1x32x32x64) ![0, i, 0, 0] S1x1x32x64.size inbO).emb x) := by
  rw [ld_slab x0 i hi inbR, View.ld_unit_zero (S := S32x64) hz2, View.ld_unit_zero (S := S32x64) hz2]
  have e2 : k0_pay2 (View.ld x2 r0_1) = x2 := by
    unfold k0_pay2
    rw [View.ld_unit_zero (S := S32x1) hz2]
    exact shapeCast_self x2 Facts₀.shapeCasts_S32x1_S32x1
  rw [e2]
  unfold blockOut
  have e1 : (⟨(((Rect.unit (s := S1x32x32x64) ![0, i, 0, 0] S1x1x32x64.size inbO).emb x) 1).val,
      (((Rect.unit (s := S1x32x32x64) ![0, i, 0, 0] S1x1x32x64.size inbO).emb x) 1).isLt⟩ : Fin 32) = ⟨i, hi⟩ :=
    Fin.ext (by show i + 1 * (x 1).val = i; have h : (x 1).val < 1 := (x 1).isLt; omega)
  have ex : x = ix4 (0 : Fin 1) (0 : Fin 1)
      (⟨(((Rect.unit (s := S1x32x32x64) ![0, i, 0, 0] S1x1x32x64.size inbO).emb x) 2).val,
        (((Rect.unit (s := S1x32x32x64) ![0, i, 0, 0] S1x1x32x64.size inbO).emb x) 2).isLt⟩ : Fin 32)
      (⟨(((Rect.unit (s := S1x32x32x64) ![0, i, 0, 0] S1x1x32x64.size inbO).emb x) 3).val,
        (((Rect.unit (s := S1x32x32x64) ![0, i, 0, 0] S1x1x32x64.size inbO).emb x) 3).isLt⟩ : Fin 64) := by
    funext a
    apply Fin.ext
    match a with
    | ⟨0, _⟩ => show (x 0).val = 0; have h : (x 0).val < 1 := (x 0).isLt; omega
    | ⟨1, _⟩ => show (x 1).val = 0; have h : (x 1).val < 1 := (x 1).isLt; omega
    | ⟨2, _⟩ => show (x 2).val = 0 + 1 * (x 2).val; omega
    | ⟨3, _⟩ => show (x 3).val = 0 + 1 * (x 3).val; omega
  rw [e1]
  exact congrArg (slab x1 x2 x3 (slabOf x0 ⟨i, hi⟩)) ex

theorem forall_cons {α : Type*} {P : α → Prop} {a : α} {l : List α} (h : P a) (t : ∀ p ∈ l, P p) : ∀ p ∈ a :: l, P p :=
  List.forall_mem_cons.mpr ⟨h, t⟩

theorem forall_nil {α : Type*} {P : α → Prop} : ∀ p ∈ ([] : List α), P p := fun _ h => absurd h List.not_mem_nil

/-- THE BLOCK the body leaves is the block function of the input blocks. -/
theorem out_eq (x0 : Vec F S1x32x64x2048 .f32) (x1 : Vec F S32x64 .f32) (x2 : Vec F S32x1 .f32) (x3 : Vec F S32x64 .f32) :
    out0_4 x0 x1 x2 x3 = blockOut x0 x1 x2 x3 := by
  funext y
  unfold out0_4
  refine View.canon_apply_of_pieces (blockOut x0 x1 x2 x3) _ ?_ y
    (cover0_4 _ _ _ _ _ _ _ _ _ _ _ _ _ _ _ _ _ _ _ _ _ _ _ _ _ _ _ _ _ _ _ _ y)
  refine forall_cons (fun x => (congrFun (pay_31 _ _ _ _) x).trans (piece_eq x0 x1 x2 x3 31 (by decide) Facts₀.inb_S1x32x64x2048_S1x1x64x2048_0_31_0_0 Facts₀.inb_S1x32x32x64_S1x1x32x64_0_31_0_0 x)) ?_
  refine forall_cons (fun x => (congrFun (pay_30 _ _ _ _) x).trans (piece_eq x0 x1 x2 x3 30 (by decide) Facts₀.inb_S1x32x64x2048_S1x1x64x2048_0_30_0_0 Facts₀.inb_S1x32x32x64_S1x1x32x64_0_30_0_0 x)) ?_
  refine forall_cons (fun x => (congrFun (pay_29 _ _ _ _) x).trans (piece_eq x0 x1 x2 x3 29 (by decide) Facts₀.inb_S1x32x64x2048_S1x1x64x2048_0_29_0_0 Facts₀.inb_S1x32x32x64_S1x1x32x64_0_29_0_0 x)) ?_
  refine forall_cons (fun x => (congrFun (pay_28 _ _ _ _) x).trans (piece_eq x0 x1 x2 x3 28 (by decide) Facts₀.inb_S1x32x64x2048_S1x1x64x2048_0_28_0_0 Facts₀.inb_S1x32x32x64_S1x1x32x64_0_28_0_0 x)) ?_
  refine forall_cons (fun x => (congrFun (pay_27 _ _ _ _) x).trans (piece_eq x0 x1 x2 x3 27 (by decide) Facts₀.inb_S1x32x64x2048_S1x1x64x2048_0_27_0_0 Facts₀.inb_S1x32x32x64_S1x1x32x64_0_27_0_0 x)) ?_
  refine forall_cons (fun x => (congrFun (pay_26 _ _ _ _) x).trans (piece_eq x0 x1 x2 x3 26 (by decide) Facts₀.inb_S1x32x64x2048_S1x1x64x2048_0_26_0_0 Facts₀.inb_S1x32x32x64_S1x1x32x64_0_26_0_0 x)) ?_
  refine forall_cons (fun x => (congrFun (pay_25 _ _ _ _) x).trans (piece_eq x0 x1 x2 x3 25 (by decide) Facts₀.inb_S1x32x64x2048_S1x1x64x2048_0_25_0_0 Facts₀.inb_S1x32x32x64_S1x1x32x64_0_25_0_0 x)) ?_
  refine forall_cons (fun x => (congrFun (pay_24 _ _ _ _) x).trans (piece_eq x0 x1 x2 x3 24 (by decide) Facts₀.inb_S1x32x64x2048_S1x1x64x2048_0_24_0_0 Facts₀.inb_S1x32x32x64_S1x1x32x64_0_24_0_0 x)) ?_
  refine forall_cons (fun x => (congrFun (pay_23 _ _ _ _) x).trans (piece_eq x0 x1 x2 x3 23 (by decide) Facts₀.inb_S1x32x64x2048_S1x1x64x2048_0_23_0_0 Facts₀.inb_S1x32x32x64_S1x1x32x64_0_23_0_0 x)) ?_
  refine forall_cons (fun x => (congrFun (pay_22 _ _ _ _) x).trans (piece_eq x0 x1 x2 x3 22 (by decide) Facts₀.inb_S1x32x64x2048_S1x1x64x2048_0_22_0_0 Facts₀.inb_S1x32x32x64_S1x1x32x64_0_22_0_0 x)) ?_
  refine forall_cons (fun x => (congrFun (pay_21 _ _ _ _) x).trans (piece_eq x0 x1 x2 x3 21 (by decide) Facts₀.inb_S1x32x64x2048_S1x1x64x2048_0_21_0_0 Facts₀.inb_S1x32x32x64_S1x1x32x64_0_21_0_0 x)) ?_
  refine forall_cons (fun x => (congrFun (pay_20 _ _ _ _) x).trans (piece_eq x0 x1 x2 x3 20 (by decide) Facts₀.inb_S1x32x64x2048_S1x1x64x2048_0_20_0_0 Facts₀.inb_S1x32x32x64_S1x1x32x64_0_20_0_0 x)) ?_
  refine forall_cons (fun x => (congrFun (pay_19 _ _ _ _) x).trans (piece_eq x0 x1 x2 x3 19 (by decide) Facts₀.inb_S1x32x64x2048_S1x1x64x2048_0_19_0_0 Facts₀.inb_S1x32x32x64_S1x1x32x64_0_19_0_0 x)) ?_
  refine forall_cons (fun x => (congrFun (pay_18 _ _ _ _) x).trans (piece_eq x0 x1 x2 x3 18 (by decide) Facts₀.inb_S1x32x64x2048_S1x1x64x2048_0_18_0_0 Facts₀.inb_S1x32x32x64_S1x1x32x64_0_18_0_0 x)) ?_
  refine forall_cons (fun x => (congrFun (pay_17 _ _ _ _) x).trans (piece_eq x0 x1 x2 x3 17 (by decide) Facts₀.inb_S1x32x64x2048_S1x1x64x2048_0_17_0_0 Facts₀.inb_S1x32x32x64_S1x1x32x64_0_17_0_0 x)) ?_
  refine forall_cons (fun x => (congrFun (pay_16 _ _ _ _) x).trans (piece_eq x0 x1 x2 x3 16 (by decide) Facts₀.inb_S1x32x64x2048_S1x1x64x2048_0_16_0_0 Facts₀.inb_S1x32x32x64_S1x1x32x64_0_16_0_0 x)) ?_
  refine forall_cons (fun x => (congrFun (pay_15 _ _ _ _) x).trans (piece_eq x0 x1 x2 x3 15 (by decide) Facts₀.inb_S1x32x64x2048_S1x1x64x2048_0_15_0_0 Facts₀.inb_S1x32x32x64_S1x1x32x64_0_15_0_0 x)) ?_
  refine forall_cons (fun x => (congrFun (pay_14 _ _ _ _) x).trans (piece_eq x0 x1 x2 x3 14 (by decide) Facts₀.inb_S1x32x64x2048_S1x1x64x2048_0_14_0_0 Facts₀.inb_S1x32x32x64_S1x1x32x64_0_14_0_0 x)) ?_
  refine forall_cons (fun x => (congrFun (pay_13 _ _ _ _) x).trans (piece_eq x0 x1 x2 x3 13 (by decide) Facts₀.inb_S1x32x64x2048_S1x1x64x2048_0_13_0_0 Facts₀.inb_S1x32x32x64_S1x1x32x64_0_13_0_0 x)) ?_
  refine forall_cons (fun x => (congrFun (pay_12 _ _ _ _) x).trans (piece_eq x0 x1 x2 x3 12 (by decide) Facts₀.inb_S1x32x64x2048_S1x1x64x2048_0_12_0_0 Facts₀.inb_S1x32x32x64_S1x1x32x64_0_12_0_0 x)) ?_
  refine forall_cons (fun x => (congrFun (pay_11 _ _ _ _) x).trans (piece_eq x0 x1 x2 x3 11 (by decide) Facts₀.inb_S1x32x64x2048_S1x1x64x2048_0_11_0_0 Facts₀.inb_S1x32x32x64_S1x1x32x64_0_11_0_0 x)) ?_
  refine forall_cons (fun x => (congrFun (pay_10 _ _ _ _) x).trans (piece_eq x0 x1 x2 x3 10 (by decide) Facts₀.inb_S1x32x64x2048_S1x1x64x2048_0_10_0_0 Facts₀.inb_S1x32x32x64_S1x1x32x64_0_10_0_0 x)) ?_
  refine forall_cons (fun x => (congrFun (pay_9 _ _ _ _) x).trans (piece_eq x0 x1 x2 x3 9 (by decide) Facts₀.inb_S1x32x64x2048_S1x1x64x2048_0_9_0_0 Facts₀.inb_S1x32x32x64_S1x1x32x64_0_9_0_0 x)) ?_
  refine forall_cons (fun x => (congrFun (pay_8 _ _ _ _) x).trans (piece_eq x0 x1 x2 x3 8 (by decide) Facts₀.inb_S1x32x64x2048_S1x1x64x2048_0_8_0_0 Facts₀.inb_S1x32x32x64_S1x1x32x64_0_8_0_0 x)) ?_
  refine forall_cons (fun x => (congrFun (pay_7 _ _ _ _) x).trans (piece_eq x0 x1 x2 x3 7 (by decide) Facts₀.inb_S1x32x64x2048_S1x1x64x2048_0_7_0_0 Facts₀.inb_S1x32x32x64_S1x1x32x64_0_7_0_0 x)) ?_
  refine forall_cons (fun x => (congrFun (pay_6 _ _ _ _) x).trans (piece_eq x0 x1 x2 x3 6 (by decide) Facts₀.inb_S1x32x64x2048_S1x1x64x2048_0_6_0_0 Facts₀.inb_S1x32x32x64_S1x1x32x64_0_6_0_0 x)) ?_
  refine forall_cons (fun x => (congrFun (pay_5 _ _ _ _) x).trans (piece_eq x0 x1 x2 x3 5 (by decide) Facts₀.inb_S1x32x64x2048_S1x1x64x2048_0_5_0_0 Facts₀.inb_S1x32x32x64_S1x1x32x64_0_5_0_0 x)) ?_
  refine forall_cons (fun x => (congrFun (pay_4 _ _ _ _) x).trans (piece_eq x0 x1 x2 x3 4 (by decide) Facts₀.inb_S1x32x64x2048_S1x1x64x2048_0_4_0_0 Facts₀.inb_S1x32x32x64_S1x1x32x64_0_4_0_0 x)) ?_
  refine forall_cons (fun x => (congrFun (pay_3 _ _ _ _) x).trans (piece_eq x0 x1 x2 x3 3 (by decide) Facts₀.inb_S1x32x64x2048_S1x1x64x2048_0_3_0_0 Facts₀.inb_S1x32x32x64_S1x1x32x64_0_3_0_0 x)) ?_
  refine forall_cons (fun x => (congrFun (pay_2 _ _ _ _) x).trans (piece_eq x0 x1 x2 x3 2 (by decide) Facts₀.inb_S1x32x64x2048_S1x1x64x2048_0_2_0_0 Facts₀.inb_S1x32x32x64_S1x1x32x64_0_2_0_0 x)) ?_
  refine forall_cons (fun x => (congrFun (pay_1 _ _ _ _) x).trans (piece_eq x0 x1 x2 x3 1 (by decide) Facts₀.inb_S1x32x64x2048_S1x1x64x2048_0_1_0_0 Facts₀.inb_S1x32x32x64_S1x1x32x64_0_1_0_0 x)) ?_
  refine forall_cons (fun x => (congrFun (pay_0 _ _ _ _) x).trans (piece_eq x0 x1 x2 x3 0 (by decide) Facts₀.inb_S1x32x64x2048_S1x1x64x2048_0_0_0_0 Facts₀.inb_S1x32x32x64_S1x1x32x64_0_0_0_0 x)) ?_
  exact forall_nil

end Cert.KernelIdeal.Pieces

end
-- ==== Proof.VladArray.lean ====
/-
  The whole result array as one function of the four argument arrays: at (bb, t, k, c) the pooled descriptor
  (VladSpec) of the 2048 feature rows R[bb, t, ·, ·], with the weights W, the offsets b and the centroids cent.
-/
import proofs.«126290_g53979148976680_feedfinal_401_12_alg».proof.Proof.VladSpec
import Idealize.ShloMosaic.Lib.ValueIdx

noncomputable section

namespace VladSpec

open Idealize.ShloMosaic Idealize.ShloMosaic.ValueIdx

/-- A [32, 64] array as a function of row and column. -/
abbrev mat2 (W : (⟨2, ![32, 64]⟩ : Shape).Idx → EReal) : Fin 32 → Fin 64 → EReal := fun k c => W (ix2 k c)
/-- A [32] array as a function of its index. -/
abbrev vec1 (b : (⟨1, ![32]⟩ : Shape).Idx → EReal) : Fin 32 → EReal := fun k => b (ix1 k)
/-- The 2048 feature rows of batch entry bb and step t. -/
abbrev rows (R : (⟨4, ![8, 32, 2048, 64]⟩ : Shape).Idx → EReal) (bb : Fin 8) (t : Fin 32) : Fin 2048 → Fin 64 → EReal :=
  fun n c => R (ix4 bb t n c)

/-- The result array. -/
def G (R : (⟨4, ![8, 32, 2048, 64]⟩ : Shape).Idx → EReal) (W : (⟨2, ![32, 64]⟩ : Shape).Idx → EReal)
    (b : (⟨1, ![32]⟩ : Shape).Idx → EReal) (cent : (⟨2, ![32, 64]⟩ : Shape).Idx → EReal) :
    (⟨4, ![8, 32, 32, 64]⟩ : Shape).Idx → EReal :=
  fun i => vlad (mat2 W) (vec1 b) (mat2 cent)
    (rows R (⟨(i 0).val, (i 0).isLt⟩ : Fin 8) (⟨(i 1).val, (i 1).isLt⟩ : Fin 32))
    (⟨(i 2).val, (i 2).isLt⟩ : Fin 32) (⟨(i 3).val, (i 3).isLt⟩ : Fin 64)

end VladSpec

end
-- ==== Proof.KernelValue.lean ====
/-
  The kernel's result array, whole: after the run it holds VladSpec.G of the four argument arrays.

  Grid point t works on batch entry t: its feature block is rows (t, ·, ·, ·) of the TRANSPOSED features (the host
  swaps the last two axes before the launch), its output block rows (t, ·, ·, ·) of the result; the weights, the
  offset column (the offsets reshaped [32] to [32, 1] by the host) and the centroids are the same whole arrays at every
  point.  What point t writes back is therefore block t of G; the eight blocks tile the result.
-/
import proofs.«126290_g53979148976680_feedfinal_401_12_alg».proof.Proof.Gen.KernelIdeal.Value
import proofs.«126290_g53979148976680_feedfinal_401_12_alg».proof.Proof.Pieces
import proofs.«126290_g53979148976680_feedfinal_401_12_alg».proof.Proof.VladArray
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Slab Cert.KernelIdeal.Pieces
open Cert.KernelIdeal.Facts₀ Cert.KernelIdeal.Facts Idealize.ShloMosaic.ValueIdx

variable (m : (ℓ : Loc nD τ sig) → Buf (Elt Ideal) ℓ) (ρ : Dev nD → PrngReg)

/-! ## The arrays the host prepares -/

/-- The offset column the region finds: the offsets, one per row. -/
theorem V_col_apply (c : Dev nD) (k : Fin 32) :
    (V m c main_v0 : S32x1.Idx → EReal) (ix2 k (0 : Fin 1)) = (m ((c : Thread nD τ).loc main_arg2) : S32.Idx → EReal) (ix1 k) := by
  have e : (V m c main_v0 : S32x1.Idx → EReal)
      = shapeCast S32x1 (m ((c : Thread nD τ).loc main_arg2) : S32.Idx → EReal) Facts₀.shapeCasts_S32_S32x1 := by
    dsimp only [Gen.V, Gen.hostOps0]; after_results; rfl
  rw [e]
  exact LibLaneReduce.col_apply _ Facts₀.shapeCasts_S32_S32x1 k

/-- The transposed features the region finds: at (bb, t, c, n) the feature of row n at channel c. -/
theorem V_feat_apply (c : Dev nD) (bb : Fin 8) (t : Fin 32) (ch : Fin 64) (n : Fin 2048) :
    (V m c main_v1 : S8x32x64x2048.Idx → EReal) (ix4 bb t ch n)
      = (m ((c : Thread nD τ).loc main_arg0) : S8x32x2048x64.Idx → EReal) (ix4 bb t n ch) := by
  have e : (V m c main_v1 : S8x32x64x2048.Idx → EReal)
      = transpose S8x32x64x2048 [0, 1, 3, 2] (m ((c : Thread nD τ).loc main_arg0) : S8x32x2048x64.Idx → EReal)
          Facts₀.transposes_S8x32x2048x64_S8x32x64x2048_0_1_3_2 := by
    dsimp only [Gen.V, Gen.hostOps0]; after_results
  rw [e]
  exact transpose_apply _ _ Facts₀.transposes_S8x32x2048x64_S8x32x64x2048_0_1_3_2 _ _
    fun a => match a with | ⟨0, _⟩ => rfl | ⟨1, _⟩ => rfl | ⟨2, _⟩ => rfl | ⟨3, _⟩ => rfl

/-! ## The block function at an index -/

/-- The block function at (·, i, k, c) is the descriptor of slab i. -/
theorem blockOut_apply (x0 : Vec Ideal S1x32x64x2048 .f32) (x1 : Vec Ideal S32x64 .f32) (x2 : Vec Ideal S32x1 .f32)
    (x3 : Vec Ideal S32x64 .f32) (j : S1x32x32x64.Idx) :
    blockOut x0 x1 x2 x3 j
      = VladSpec.vlad (mat x1) (col x2) (mat x3) (feat (slabOf x0 (⟨(j 1).val, (j 1).isLt⟩ : Fin 32)))
          (⟨(j 2).val, (j 2).isLt⟩ : Fin 32) (⟨(j 3).val, (j 3).isLt⟩ : Fin 64) := by
  unfold blockOut
  exact slab_apply x1 x2 x3 _ 0 0 _ _

/-! ## From blocks to the array -/

/-- The printed index maps over the grid: the feature and output windows move with the point along the batch axis,
    the other windows stay. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)

/-- WHAT POINT t WRITES BACK is block t of G of the argument arrays. -/
theorem flushed_eq (c : Dev nD) (t : Fin cfg0.N) :
    (dats m 0 c).flushed 4 t = ((cfg0.win 4).blk t).view.read (Elt Ideal)
      (VladSpec.G (m ((c : Thread nD τ).loc main_arg0)) (m ((c : Thread nD τ).loc main_arg1))
        (m ((c : Thread nD τ).loc main_arg2)) (m ((c : Thread nD τ).loc main_arg3))) := by
  rw [Value.flushed4, Pieces.out_eq]
  obtain ⟨a0, a1, a2, a3, b0, b1, c0, c1, d0, d1, e0, e1, e2, e3⟩ := idx_facts t
  funext j
  show blockOut (iblk m c 0 t) (iblk m c 1 t) (iblk m c 2 t) (iblk m c 3 t) j
    = VladSpec.G _ _ _ _ (((cfg0.win 4).blk t).view.emb j)
  rw [blockOut_apply]
  unfold VladSpec.G
  have hj0 : (j 0).val < 1 := (j 0).isLt
  have hW : mat (iblk m c 1 t) = VladSpec.mat2 (m ((c : Thread nD τ).loc main_arg1)) := by
    funext k ch
    show V m c main_arg1 (((cfg0.win 1).blk t).view.emb (ix2 k ch)) = _
    rw [V_main_arg1]
    refine congrArg (m ((c : Thread nD τ).loc main_arg1)) (funext fun a => Fin.ext ?_)
    match a with
    | ⟨0, _⟩ => show win0_1.index t (0 : Fin 2) * 32 + 1 * k.val = k.val; omega
    | ⟨1, _⟩ => show win0_1.index t (1 : Fin 2) * 64 + 1 * ch.val = ch.val; omega
  have hC : mat (iblk m c 3 t) = VladSpec.mat2 (m ((c : Thread nD τ).loc main_arg3)) := by
    funext k ch
    show V m c main_arg3 (((cfg0.win 3).blk t).view.emb (ix2 k ch)) = _
    rw [V_main_arg3]
    refine congrArg (m ((c : Thread nD τ).loc main_arg3)) (funext fun a => Fin.ext ?_)
    match a with
    | ⟨0, _⟩ => show win0_3.index t (0 : Fin 2) * 32 + 1 * k.val = k.val; omega
    | ⟨1, _⟩ => show win0_3.index t (1 : Fin 2) * 64 + 1 * ch.val = ch.val; omega
  have hB : col (iblk m c 2 t) = VladSpec.vec1 (m ((c : Thread nD τ).loc main_arg2)) := by
    funext k
    show V m c main_v0 (((cfg0.win 2).blk t).view.emb (ix2 k (0 : Fin 1))) = _
    have hi : ((cfg0.win 2).blk t).view.emb (ix2 k (0 : Fin 1)) = ix2 k (0 : Fin 1) := by
      funext a; apply Fin.ext
      match a with
      | ⟨0, _⟩ => show win0_2.index t (0 : Fin 2) * 32 + 1 * k.val = k.val; omega
      | ⟨1, _⟩ => show win0_2.index t (1 : Fin 2) * 1 + 1 * 0 = 0; omega
    rw [hi]
    exact V_col_apply m c k
  have hR : feat (slabOf (iblk m c 0 t) (⟨(j 1).val, (j 1).isLt⟩ : Fin 32))
      = VladSpec.rows (m ((c : Thread nD τ).loc main_arg0))
          (⟨((((cfg0.win 4).blk t).view.emb j) 0).val, ((((cfg0.win 4).blk t).view.emb j) 0).isLt⟩ : Fin 8)
          (⟨((((cfg0.win 4).blk t).view.emb j) 1).val, ((((cfg0.win 4).blk t).view.emb j) 1).isLt⟩ : Fin 32) := by
    funext n ch
    show V m c main_v1 (((cfg0.win 0).blk t).view.emb
        (ix4 (0 : Fin 1) (⟨(j 1).val, (j 1).isLt⟩ : Fin 32) (⟨ch.val, ch.isLt⟩ : Fin 64) (⟨n.val, n.isLt⟩ : Fin 2048))) = _
    have hi : ((cfg0.win 0).blk t).view.emb
        (ix4 (0 : Fin 1) (⟨(j 1).val, (j 1).isLt⟩ : Fin 32) (⟨ch.val, ch.isLt⟩ : Fin 64) (⟨n.val, n.isLt⟩ : Fin 2048))
        = ix4 (⟨((((cfg0.win 4).blk t).view.emb j) 0).val, ((((cfg0.win 4).blk t).view.emb j) 0).isLt⟩ : Fin 8)
            (⟨((((cfg0.win 4).blk t).view.emb j) 1).val, ((((cfg0.win 4).blk t).view.emb j) 1).isLt⟩ : Fin 32) ch n := by
      funext a; apply Fin.ext
      match a with
      | ⟨0, _⟩ => show win0_0.index t (0 : Fin 4) * 1 + 1 * 0 = win0_4.index t (0 : Fin 4) * 1 + 1 * (j 0).val; omega
      | ⟨1, _⟩ => show win0_0.index t (1 : Fin 4) * 32 + 1 * (j 1).val = win0_4.index t (1 : Fin 4) * 32 + 1 * (j 1).val; omega
      | ⟨2, _⟩ => show win0_0.index t (2 : Fin 4) * 64 + 1 * ch.val = ch.val; omega
      | ⟨3, _⟩ => show win0_0.index t (3 : Fin 4) * 2048 + 1 * n.val = n.val; omega
    rw [hi]
    exact V_feat_apply m c _ _ ch n
  have hk : (⟨(j 2).val, (j 2).isLt⟩ : Fin 32)
      = ⟨((((cfg0.win 4).blk t).view.emb j) 2).val, ((((cfg0.win 4).blk t).view.emb j) 2).isLt⟩ :=
    Fin.ext (by show (j 2).val = win0_4.index t (2 : Fin 4) * 32 + 1 * (j 2).val; omega)
  have hc : (⟨(j 3).val, (j 3).isLt⟩ : Fin 64)
      = ⟨((((cfg0.win 4).blk t).view.emb j) 3).val, ((((cfg0.win 4).blk t).view.emb j) 3).isLt⟩ :=
    Fin.ext (by show (j 3).val = win0_4.index t (3 : Fin 4) * 64 + 1 * (j 3).val; omega)
  rw [hW, hC, hB, hR, hk, hc]

/-- An index of the result is in point t's block iff each coordinate is in the block's range on its axis. -/
theorem mem_blk (t : Fin cfg0.N) (i : S8x32x32x64.Idx) :
    i ∈ ((cfg0.win 4).blk t).view.set ↔ ∀ a : Fin 4, win0_4.index t a * S1x32x32x64.size a ≤ (i a).val
      ∧ (i a).val < win0_4.index t a * S1x32x32x64.size a + S1x32x32x64.size a := by
  show i ∈ ((View.whole main_v2).slice (win0_4.rect t)).set ↔ _
  rw [View.set_slice_whole, Rect.mem_set_unit]
  exact Iff.rfl

/-- Every index of the result is in the block of the point its batch coordinate names. -/
theorem cover (i : S8x32x32x64.Idx) :
    ∃ t : Fin cfg0.N, (cfg0.win 4).flush t = true ∧ i ∈ ((cfg0.win 4).blk t).view.set := by
  have h0 : (i 0).val < 8 := (i 0).isLt
  have h1 : (i 1).val < 32 := (i 1).isLt
  have h2 : (i 2).val < 32 := (i 2).isLt
  have h3 : (i 3).val < 64 := (i 3).isLt
  let t : Fin cfg0.N := ⟨(i 0).val, by rw [show cfg0.N = 8 from N_0]; exact h0⟩
  have htv : t.val = (i 0).val := rfl
  obtain ⟨a0, a1, a2, a3, b0, b1, c0, c1, d0, d1, e0, e1, e2, e3⟩ := idx_facts t
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 32 ≤ (i 1).val ∧ (i 1).val < win0_4.index t (1 : Fin 4) * 32 + 32; omega
  | ⟨2, _⟩ => show win0_4.index t (2 : Fin 4) * 32 ≤ (i 2).val ∧ (i 2).val < win0_4.index t (2 : Fin 4) * 32 + 32; omega
  | ⟨3, _⟩ => show win0_4.index t (3 : Fin 4) * 64 ≤ (i 3).val ∧ (i 3).val < win0_4.index t (3 : Fin 4) * 64 + 64; omega

/-- THE ARRAY after the run is G of the argument arrays. -/
theorem final (c : Dev nD) : (dats m 0 c).arrAt 4 cfg0.N
    = VladSpec.G (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- The kernel's run: it ends with the result array at G of the arguments, the arguments unchanged. -/
theorem run : θ_run defs (onTc (τ := τ) (main (F := Ideal))) ⟨m, fun _ => 0, ρ⟩ fun r => ∀ c : Dev nD,
      r.2.mem ((c : Thread nD τ).loc main_v2)
        = VladSpec.G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.LibSoftmaxShift.lean ====
/-
  The softmax of shifted logits, on the extended reals.

  A softmax is often computed after subtracting the row maximum from the logits, and often without.  With
  Ideal.exp and Ideal.div on the extended reals the two agree whenever the logits and the shift are REAL:
  exp (l - m) = exp l / exp m, the sums are positive reals, and the common factor exp m cancels in the quotient.
  (At an infinite logit they need not agree, hence the hypotheses.)  Also here: the coercion of a finite real sum is
  the sum of the coercions, and a maximum of finitely many reals folded from minus infinity (and taken once more
  against minus infinity, as a lowered softmax does) is a real as soon as there is one of them.  General in the index type.
-/
import Idealize.ShloMosaic.PureOps.Ideal.Laws
import Mathlib.Data.Finset.Fold

noncomputable section

open scoped BigOperators

namespace LibSoftmaxShift

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum of finitely many reals taken from minus infinity (and once more against minus infinity) is a real,
    as soon as there is one of them. -/
theorem fold_max_real {ι : Type*} [Fintype ι] (f : ι → EReal) (hf : ∀ j, ∃ x : ℝ, f j = x) (k : ι) :
    ∃ m : ℝ, max (⊥ : EReal) ((Finset.univ : Finset ι).fold max ⊥ f) = m := by
  have hlt : (Finset.univ : Finset ι).fold max ⊥ f < ⊤ :=
    (Finset.fold_max_lt _).mpr ⟨bot_lt_top, fun j _ => by obtain ⟨x, hx⟩ := hf j; rw [hx]; exact EReal.coe_lt_top x⟩
  have hge : f k ≤ (Finset.univ : Finset ι).fold max ⊥ f :=
    (Finset.le_fold_max _).mpr (Or.inr ⟨k, Finset.mem_univ k, le_rfl⟩)
  have hbot : (Finset.univ : Finset ι).fold max ⊥ f ≠ ⊥ := by
    obtain ⟨x, hx⟩ := hf k
    rw [hx] at hge
    exact (lt_of_lt_of_le (EReal.bot_lt_coe x) hge).ne'
  rw [max_eq_right bot_le]
  exact ⟨((Finset.univ : Finset ι).fold max ⊥ f).toReal, (EReal.coe_toReal hlt.ne hbot).symm⟩

/-- THE LAW: on real logits, the softmax of the logits shifted by any real is the softmax of the logits. -/
theorem softmax_shift {ι : Type*} [Fintype ι] (L : ι → EReal) (hL : ∀ j, ∃ x : ℝ, L j = x) (M : EReal)
    (hM : ∃ m : ℝ, M = m) (k : ι) :
    Ideal.div (Ideal.exp (L k - M)) (∑ j : ι, Ideal.exp (L j - M)) = Ideal.div (Ideal.exp (L k)) (∑ j : ι, Ideal.exp (L j)) := by
  obtain ⟨m, rfl⟩ := hM
  choose l hl using hL
  have e1 : ∀ j, Ideal.exp (L j - (m : EReal)) = ((Real.exp (l j - m) : ℝ) : EReal) := fun j => by
    rw [hl j, ← EReal.coe_sub]; rfl
  have e2 : ∀ j, Ideal.exp (L j) = ((Real.exp (l j) : ℝ) : EReal) := fun j => by rw [hl j]; rfl
  simp only [e1, e2, ← coe_sum]
  have hpos1 : (0 : ℝ) < ∑ j : ι, Real.exp (l j - m) :=
    Finset.sum_pos (fun j _ => Real.exp_pos _) ⟨k, Finset.mem_univ k⟩
  have hpos2 : (0 : ℝ) < ∑ j : ι, Real.exp (l j) :=
    Finset.sum_pos (fun j _ => Real.exp_pos _) ⟨k, Finset.mem_univ k⟩
  rw [Ideal.div_coe hpos1.ne', Ideal.div_coe hpos2.ne', ← EReal.coe_mul, ← EReal.coe_mul]
  congr 1
  have hs : ∀ j, Real.exp (l j - m) = Real.exp (l j) / Real.exp m := fun j => Real.exp_sub _ _
  simp only [hs, ← Finset.sum_div]
  have hm : Real.exp m ≠ 0 := (Real.exp_pos m).ne'
  field_simp

end LibSoftmaxShift

end
-- ==== Proof.RefValue.lean ====
/-
  The reference's result array, whole: on real (finite) features, weights and offsets it is VladSpec.G of the four
  argument arrays.

  The reference flattens the batch and step axes to one row axis (row = bb * 32 + t), takes the logits
  (features times weights, plus the offsets, times one), subtracts each feature row's maximum over the clusters
  before the exponential, divides by the sum of those exponentials, and contracts the assignments with the features
  over the 2048 feature rows.  The subtraction of the maximum is where the reals are needed: the maximum of real
  logits is a real, and the softmax of logits shifted by a real is the softmax of the logits (LibSoftmaxShift.softmax_shift).
-/
import proofs.«126290_g53979148976680_feedfinal_401_12_alg».proof.Proof.Gen.ReferenceIdeal.Read
import proofs.«126290_g53979148976680_feedfinal_401_12_alg».proof.Proof.VladArray
import proofs.«126290_g53979148976680_feedfinal_401_12_alg».proof.Proof.LibSoftmaxShift
import Idealize.ShloMosaic.PureOps.Reduce
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-- The word of 1.0 denotes one. -/
theorem ofBits_one : Ideal.ofBits .f32 0x3F800000#32 = 1 := by
  simp [Ideal.ofBits, Ideal.ieee, -EReal.coe_mul]; norm_num

/-- The word of minus infinity denotes the bottom of the extended reals. -/
theorem ofBits_ninf : Ideal.ofBits .f32 0xFF800000#32 = ⊥ := by
  simp [Ideal.ofBits, Ideal.ieee]

variable (R : (⟨S8x32x2048x64, .f32⟩ : BufTy).Contents (Elt Ideal)) (W : (⟨S32x64, .f32⟩ : BufTy).Contents (Elt Ideal))
  (b : (⟨S32, .f32⟩ : BufTy).Contents (Elt Ideal)) (cent : (⟨S32x64, .f32⟩ : BufTy).Contents (Elt Ideal))

/-- The flattened row of batch entry bb and step t. -/
def row (bb : Fin 8) (t : Fin 32) : Fin 256 := ⟨bb.val * 32 + t.val, by have := bb.isLt; have := t.isLt; omega⟩

/-- The flattened features at (row bb t, n, c) are the features at (bb, t, n, c). -/
theorem feat_apply (bb : Fin 8) (t : Fin 32) (n : Fin 2048) (c : Fin 64) :
    val_main_v0 (F := Ideal) R (ix3 (row bb t) n c) = R (ix4 bb t n c) := by
  rw [val_main_v0_apply]
  refine congrArg R (funext fun a => Fin.ext ?_)
  have h0 := bb.isLt; have h1 := t.isLt; have h2 := n.isLt; have h3 := c.isLt
  match a with
  | ⟨0, _⟩ => show (((bb.val * 32 + t.val) * 2048 + n.val) * 64 + c.val) / 4194304 = bb.val; omega
  | ⟨1, _⟩ => show (((bb.val * 32 + t.val) * 2048 + n.val) * 64 + c.val) / 131072 % 32 = t.val; omega
  | ⟨2, _⟩ => show (((bb.val * 32 + t.val) * 2048 + n.val) * 64 + c.val) / 64 % 2048 = n.val; omega
  | ⟨3, _⟩ => show (((bb.val * 32 + t.val) * 2048 + n.val) * 64 + c.val) % 64 = c.val; omega

/-- The reference's logits at (row, n, k): features times weights, plus the offset, times one. -/
theorem logit_apply (mr : Fin 256) (n : Fin 2048) (k : Fin 32) :
    val_main_v6 (F := Ideal) R W b (ix3 mr n k)
      = ((∑ c : Fin 64, val_main_v0 (F := Ideal) R (ix3 mr n c) * W (ix2 k c)) + b (ix1 k)) * 1 := by
  rw [val_main_v6_apply, val_main_v4_apply, val_main_v1_apply, val_main_v3_apply, val_main_v2_apply, val_main_v5_apply,
    val_main_cst_apply]
  have el : ∀ c : Fin 64, lidx_main_v1 (ix3 mr n k) c = ix3 mr n c := fun c => funext fun a => Fin.ext (by
    match a with | ⟨0, _⟩ => rfl | ⟨1, _⟩ => rfl | ⟨2, _⟩ => rfl)
  have er : ∀ c : Fin 64, ridx_main_v1 (ix3 mr n k) c = ix2 k c := fun c => funext fun a => Fin.ext (by
    match a with | ⟨0, _⟩ => rfl | ⟨1, _⟩ => rfl)
  have eb : idx_main_v2 (idx_main_v3 (ix3 mr n k)) = ix1 k := funext fun a => Fin.ext (by
    match a with | ⟨0, _⟩ => rfl)
  simp only [el, er, eb, Ideal.addf_def, Ideal.mulf_def, Ideal.ofBits_def, ofBits_one]

/-- The reference's logits are the logits of VladSpec (the two factors of each product the other way round). -/
theorem logit_eq (mr : Fin 256) (n : Fin 2048) (k : Fin 32) :
    val_main_v6 (F := Ideal) R W b (ix3 mr n k)
      = VladSpec.logit (VladSpec.mat2 W) (VladSpec.vec1 b) (fun n c => val_main_v0 (F := Ideal) R (ix3 mr n c)) k n := by
  rw [logit_apply, mul_one]
  unfold VladSpec.logit
  exact congrArg (· + b (ix1 k)) (Finset.sum_congr rfl fun c _ => mul_comm _ _)

section Finite

variable (hR : ∀ i, ∃ x : ℝ, R i = (x : EReal)) (hW : ∀ i, ∃ x : ℝ, W i = (x : EReal)) (hb : ∀ i, ∃ x : ℝ, b i = (x : EReal))
include hR hW hb

/-- On real inputs every logit is a real. -/
theorem logit_real (i : S256x2048x32.Idx) : ∃ x : ℝ, val_main_v6 (F := Ideal) R W b i = (x : EReal) := by
  obtain ⟨p, q, r, rfl⟩ : ∃ (p : Fin 256) (q : Fin 2048) (r : Fin 32), i = ix3 p q r := ⟨i 0, i 1, i 2, eq_ix3 i⟩
  rw [logit_apply, mul_one]
  choose Rr hRr using hR
  choose Wr hWr using hW
  choose br hbr using hb
  refine ⟨(∑ c : Fin 64, Rr (idx_main_v0 (ix3 p q c)) * Wr (ix2 r c)) + br (ix1 r), ?_⟩
  simp only [val_main_v0_apply, hRr, hWr, hbr]
  rw [EReal.coe_add, LibSoftmaxShift.coe_sum]
  simp only [EReal.coe_mul]

/-- On real inputs each feature row's maximum logit is a real. -/
theorem max_real (mr : Fin 256) (n : Fin 2048) : ∃ x : ℝ, val_main_v9 (F := Ideal) R W b (ix2 mr n) = (x : EReal) := by
  rw [val_main_v9_apply, val_main_v8_apply, val_main_cst_1_apply]
  unfold val_main_v7
  rw [Host.reduce_eq_fold_single FloatOps.maximumf _ _ Facts₀.reducesTo_S256x2048x32_S256x2048_d2
    (by decide : S256x2048x32.Reduces [2] S256x2048) Facts₀.h_S_]
  rw [val_main_cst_0_apply]
  show ∃ x : ℝ, max (Ideal.ofBits .f32 0xFF800000#32)
    ((Finset.univ : Finset (Fin (S256x2048x32.size 2))).fold max (Ideal.ofBits .f32 0xFF800000#32) _) = (x : EReal)
  rw [ofBits_ninf]
  exact LibSoftmaxShift.fold_max_real _ (fun j => logit_real R W b hR hW hb _) (⟨0, by decide⟩ : Fin (S256x2048x32.size 2))

/-- On real inputs the reference's assignments are the softmax of the logits, with no shift. -/
theorem assign_apply (mr : Fin 256) (n : Fin 2048) (k : Fin 32) :
    val_main_v17 (F := Ideal) R W b (ix3 mr n k)
      = VladSpec.assign (VladSpec.mat2 W) (VladSpec.vec1 b) (fun n c => val_main_v0 (F := Ideal) R (ix3 mr n c)) k n := by
  rw [val_main_v17_apply, val_main_v16_apply, val_main_v15_apply, val_main_v14_apply, val_main_cst_2_apply]
  have e1 : idx_main_v15 (idx_main_v16 (ix3 mr n k)) = ix2 mr n := funext fun a => Fin.ext (by
    match a with | ⟨0, _⟩ => rfl | ⟨1, _⟩ => rfl)
  have e2 : ∀ j : Fin 32, idx_main_v14 (ix2 mr n) j = ix3 mr n j := fun j => funext fun a => Fin.ext (by
    match a with | ⟨0, _⟩ => rfl | ⟨1, _⟩ => rfl | ⟨2, _⟩ => rfl)
  have e3 : ∀ j : Fin 32, idx_main_v10 (idx_main_v11 (ix3 mr n j)) = ix2 mr n := fun j => funext fun a => Fin.ext (by
    match a with | ⟨0, _⟩ => rfl | ⟨1, _⟩ => rfl)
  simp only [e1, e2, val_main_v13_apply, val_main_v12_apply, val_main_v11_apply, val_main_v10_apply, e3,
    Ideal.hostDivf_def, Ideal.hostUnary_exp_def, Ideal.subf_def, Ideal.ofBits_def, Ideal.ofBits_zero_f32, zero_add]
  rw [LibSoftmaxShift.softmax_shift (fun j : Fin 32 => val_main_v6 (F := Ideal) R W b (ix3 mr n j))
    (fun j => logit_real R W b hR hW hb _) _ (max_real R W b hR hW hb mr n) k]
  unfold VladSpec.assign
  simp only [logit_eq]

/-- THE REFERENCE AT AN INDEX: on real inputs, G. -/
theorem result_apply (bb : Fin 8) (t : Fin 32) (k : Fin 32) (c : Fin 64) :
    val_main_v26 (F := Ideal) R W b cent (ix4 bb t k c) = VladSpec.G R W b cent (ix4 bb t k c) := by
  rw [val_main_v26_apply]
  have e0 : idx_main_v26 (ix4 bb t k c) = ix3 (row bb t) k c := by
    funext a; apply Fin.ext
    have h0 := bb.isLt; have h1 := t.isLt; have h2 := k.isLt; have h3 := c.isLt
    match a with
    | ⟨0, _⟩ => show (((bb.val * 32 + t.val) * 32 + k.val) * 64 + c.val) / 2048 = bb.val * 32 + t.val; omega
    | ⟨1, _⟩ => show (((bb.val * 32 + t.val) * 32 + k.val) * 64 + c.val) / 64 % 32 = k.val; omega
    | ⟨2, _⟩ => show (((bb.val * 32 + t.val) * 32 + k.val) * 64 + c.val) % 64 = c.val; omega
  rw [e0, val_main_v25_apply, val_main_v18_apply, val_main_v24_apply, val_main_v22_apply, val_main_v20_apply,
    val_main_v19_apply, val_main_cst_3_apply, val_main_v23_apply, val_main_v21_apply]
  have e1 : ∀ n : Fin 2048, lidx_main_v18 (ix3 (row bb t) k c) n = ix3 (row bb t) n k := fun n => funext fun a => Fin.ext (by
    match a with | ⟨0, _⟩ => rfl | ⟨1, _⟩ => rfl | ⟨2, _⟩ => rfl)
  have e2 : ∀ n : Fin 2048, ridx_main_v18 (ix3 (row bb t) k c) n = ix3 (row bb t) n c := fun n => funext fun a => Fin.ext (by
    match a with | ⟨0, _⟩ => rfl | ⟨1, _⟩ => rfl | ⟨2, _⟩ => rfl)
  have e3 : idx_main_v20 (idx_main_v22 (ix3 (row bb t) k c)) = ix2 (row bb t) k := funext fun a => Fin.ext (by
    match a with | ⟨0, _⟩ => rfl | ⟨1, _⟩ => rfl)
  have e4 : ∀ n : Fin 2048, idx_main_v19 (ix2 (row bb t) k) n = ix3 (row bb t) n k := fun n => funext fun a => Fin.ext (by
    match a with | ⟨0, _⟩ => rfl | ⟨1, _⟩ => rfl | ⟨2, _⟩ => rfl)
  have e5 : idx_main_v21 (idx_main_v23 (ix3 (row bb t) k c)) = ix2 k c := funext fun a => Fin.ext (by
    match a with | ⟨0, _⟩ => rfl | ⟨1, _⟩ => rfl)
  simp only [e1, e2, e3, e4, e5, assign_apply R W b hR hW hb, feat_apply, Ideal.subf_def, Ideal.mulf_def, Ideal.ofBits_def,
    Ideal.ofBits_zero_f32, zero_add]
  rfl

/-- THE REFERENCE'S RESULT ARRAY is G of the argument arrays, on real inputs. -/
theorem result_eq : val_main_v26 (F := Ideal) R W b cent = VladSpec.G R W b cent := by
  funext i
  rw [eq_ix4 i]
  exact result_apply R W b cent hR hW hb _ _ _ _

end Finite

end Cert.ReferenceIdeal.RefValue

end
-- ==== Proof.Finite.lean ====
/-
  What the precondition says: every entry of the four argument arrays is a real number.

  The precondition is the conjunction of four tests "all entries of |a| are below plus infinity", each printed as a
  reduction by "and" of the entrywise comparisons.  An entry x with max x (-x) below the top of the extended reals
  is neither infinity, so it is a real.
-/
import proofs.«126290_g53979148976680_feedfinal_401_12_alg».proof.Pre_finite_inputs
import Idealize.ShloMosaic.Lib.ReduceAll
import Idealize.ShloMosaic.Lib.WordArith
import Idealize.ShloMosaic.Lib.ValueIdx
import Idealize.ShloMosaic.PureOps.Ideal.Laws

noncomputable section

namespace Cert.Pre_finite_inputs.Finite

open Cert.Pre_finite_inputs Idealize.ShloMosaic

variable [Facts]

instance subsingleton_scalar : Subsingleton S_.Idx := ⟨fun a b => funext fun d => d.elim0⟩

/-- An extended real whose absolute value is below plus infinity is a real. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    have h' : BitVec.ofBool (decide (max x (-x) < ⊤)) = 1#1 := h
    exact of_decide_eq_true ((WordArith.ofBool_eq_one_iff _).1 h')
  induction x using EReal.rec with
  | bot => exact absurd hlt (by simp)
  | coe r => exact ⟨r, rfl⟩
  | top => exact absurd hlt (by simp)

/-- One test "all entries of |a| are below plus infinity" that came out true: every entry of a is a real. -/
theorem real_of_all {s : Shape} (a : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ValueIdx.ix0 = 1#1) (i : s.Idx) : ∃ r : ℝ, a i = (r : EReal) :=
  real_of_abs_lt (a i) (Host.reduce_andi_all _ _ hr hu ValueIdx.ix0 e i)

/-- THE PRECONDITION READ: the four argument arrays hold reals. -/
theorem finite_of_pre (a0 : FVec Ideal S8x32x2048x64 .f32) (a1 : FVec Ideal S32x64 .f32) (a2 : FVec Ideal S32 .f32)
    (a3 : FVec Ideal S32x64 .f32) (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨real_of_all a0 _ _ _ h1, real_of_all a1 _ _ _ h2, real_of_all a2 _ _ _ h3, real_of_all a3 _ _ _ h4⟩

end Cert.Pre_finite_inputs.Finite

end
-- ==== Proof.lean ====
/-
  The certificate of the pooling kernel against its reference.

  Both programs compute, for every batch entry bb, step t, cluster k and channel c, the pooled descriptor
      (sum over n of a[k, n] * r[n, c]) - (sum over n of a[k, n]) * cent[k, c]
  of the 2048 feature rows r = R[bb, t, ·, ·], where a[·, n] is the softmax over the 32 clusters of the logits
  W r[n] + b.  The kernel takes the softmax as exp l / sum exp l on a transposed copy of the features, one batch entry
  per grid point and 32 slabs per point; the reference subtracts each row's maximum logit first.  On real inputs the two
  softmaxes agree, so the two result arrays are one function VladSpec.G of the arguments (KernelValue.lean for the kernel,
  RefValue.lean for the reference, Finite.lean for "the precondition makes the inputs real").  The idealization
  rewrote nothing, and the three frames are the generated ones.
-/
import proofs.«126290_g53979148976680_feedfinal_401_12_alg».proof.Defs
import proofs.«126290_g53979148976680_feedfinal_401_12_alg».proof.Proof.Gen.Kernel
import proofs.«126290_g53979148976680_feedfinal_401_12_alg».proof.Proof.Gen.Kernel.Skeleton
import proofs.«126290_g53979148976680_feedfinal_401_12_alg».proof.Proof.Gen.Kernel.Launch
import proofs.«126290_g53979148976680_feedfinal_401_12_alg».proof.Proof.Gen.Kernel.Points
import proofs.«126290_g53979148976680_feedfinal_401_12_alg».proof.Proof.Gen.Kernel.Frame
import proofs.«126290_g53979148976680_feedfinal_401_12_alg».proof.Proof.Gen.KernelIdeal
import proofs.«126290_g53979148976680_feedfinal_401_12_alg».proof.Proof.Gen.KernelIdeal.Skeleton
import proofs.«126290_g53979148976680_feedfinal_401_12_alg».proof.Proof.Gen.KernelIdeal.Launch
import proofs.«126290_g53979148976680_feedfinal_401_12_alg».proof.Proof.Gen.KernelIdeal.Points
import proofs.«126290_g53979148976680_feedfinal_401_12_alg».proof.Proof.Gen.KernelIdeal.Frame
import proofs.«126290_g53979148976680_feedfinal_401_12_alg».proof.Proof.Gen.ReferenceIdeal
import proofs.«126290_g53979148976680_feedfinal_401_12_alg».proof.Proof.Gen.Pre_finite_inputs
import proofs.«126290_g53979148976680_feedfinal_401_12_alg».proof.Proof.Gen.KernelIdeal.Value
import proofs.«126290_g53979148976680_feedfinal_401_12_alg».proof.Proof.Gen.ReferenceIdeal.Run
import proofs.«126290_g53979148976680_feedfinal_401_12_alg».proof.Proof.Gen.ReferenceIdeal.Read
import proofs.«126290_g53979148976680_feedfinal_401_12_alg».proof.Proof.KernelValue
import proofs.«126290_g53979148976680_feedfinal_401_12_alg».proof.Proof.RefValue
import proofs.«126290_g53979148976680_feedfinal_401_12_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on real arguments, both programs end with the result array at VladSpec.G of the arguments. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hR, hW, hb, -⟩ := Cert.Pre_finite_inputs.Finite.finite_of_pre _ _ _ _ (hpre c)
  rw [Cert.ReferenceIdeal.Read.val_main_v26_eq, (hagree c).1, (hagree c).2.1, (hagree c).2.2.1, (hagree c).2.2.2]
  exact Cert.ReferenceIdeal.RefValue.result_eq _ _ _ _ hR hW hb

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
